-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x64 .f32) (main_arg5 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S2000x256 : Shape := ⟨2, ![2000, 256]⟩
abbrev S2000x128 : Shape := ⟨2, ![2000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩
abbrev S2000 : Shape := ⟨1, ![2000]⟩
abbrev S2000x1 : Shape := ⟨2, ![2000, 1]⟩

abbrev nBuf : Space → Nat
  | .hbm => 43
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .bf16⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .bf16⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x64, .bf16⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x64, .bf16⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S1x64, .f32⟩
  | .hbm, ⟨42, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .bf16⟩
  | .local _ .vmem, ⟨4, _⟩ => ⟨S2000x128, .bf16⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x64, .f32⟩
  | .local _ .vmem, ⟨9, _⟩ => ⟨S2000x64, .bf16⟩
  | .local _ .vmem, ⟨10, _⟩ => ⟨S2000x64, .bf16⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c_1 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .bf16 = 32 ∨ (Rect.block (s := S100000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x64.size a ≤ S100000x64.size a
  hwx1_3 : ∀ i : grid1.Coords, EltTy.bits .bf16 = 32 ∨ (Rect.block (s := S100000x64) S2000x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S2000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩
abbrev S100000 : Shape := ⟨1, ![100000]⟩
abbrev S100000x1 : Shape := ⟨2, ![100000, 1]⟩

abbrev nBuf : Space → Nat
  | .hbm => 73
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S_, .f32⟩
  | .hbm, ⟨21, _⟩ => ⟨S100000x128, .f32⟩
  | .hbm, ⟨22, _⟩ => ⟨S1600000x1, .i32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S_, .f32⟩
  | .hbm, ⟨28, _⟩ => ⟨S100000x128, .f32⟩
  | .hbm, ⟨29, _⟩ => ⟨S100000x128, .i1⟩
  | .hbm, ⟨30, _⟩ => ⟨S_, .f32⟩
  | .hbm, ⟨31, _⟩ => ⟨S100000x128, .f32⟩
  | .hbm, ⟨32, _⟩ => ⟨S100000x128, .i1⟩
  | .hbm, ⟨33, _⟩ => ⟨S_, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S_, .f32⟩
  | .hbm, ⟨53, _⟩ => ⟨S100000x64, .f32⟩
  | .hbm, ⟨54, _⟩ => ⟨S1600000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S100000x1, .f32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S_, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_cst_1 : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_v4 : Ref sig .tc := ⟨.hbm, 36, rfl⟩
abbrev main_call0_v5 : Ref sig .tc := ⟨.hbm, 37, rfl⟩
abbrev main_call0_cst_2 : Ref sig .tc := ⟨.hbm, 38, rfl⟩
abbrev main_call0_v6 : Ref sig .tc := ⟨.hbm, 39, rfl⟩
abbrev main_call0_v7 : Ref sig .tc := ⟨.hbm, 40, rfl⟩
abbrev main_v18 : Ref sig .tc := ⟨.hbm, 41, rfl⟩
abbrev main_v19 : Ref sig .tc := ⟨.hbm, 42, rfl⟩
abbrev main_c_1 : Ref sig .tc := ⟨.hbm, 43, rfl⟩
abbrev main_v20 : Ref sig .tc := ⟨.hbm, 44, rfl⟩
abbrev main_v21 : Ref sig .tc := ⟨.hbm, 45, rfl⟩
abbrev main_c_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_cst_3 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_4 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_6 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
/-
  The result of both programs as ONE function of the argument arrays, index by index, on the extended reals.

  A node's features go through two rounds of "transform linearly, collect over incoming edges, add a bias": row p of
  `lin1 x w` is row p of x times w; the collection over edges (a gather at the edges' sources followed by a sum at
  their destinations) is the same opaque function of a node table on both sides, so it enters here as a parameter
  (`agg128`, `agg64`) and is never opened; `bias` adds the bias vector to every row; `elu` is the exponential
  linear unit, v where v is positive and exp v - 1 elsewhere; `softmax` divides the exponentials of a row, shifted by
  the row's maximum, by their sum.
-/
import Idealize.ShloMosaic.PureOps.Ideal
import Idealize.ShloMosaic.Lib.ValueIdx

noncomputable section

open scoped BigOperators

namespace Cert.Spec

open Idealize.ShloMosaic Idealize.ShloMosaic.ValueIdx

/-- An array of extended reals with r rows and c columns. -/
abbrev Arr (r c : Nat) : Type := (⟨2, ![r, c]⟩ : Shape).Idx → EReal

/-- Row p of the first linear layer: the 256 features of node p against column j of the weights. -/
def lin1 (x : Arr 100000 256) (w : Arr 256 128) : Arr 100000 128 :=
  fun i => ∑ q : Fin 256, x (ix2 (i 0) q) * w (ix2 q (i 1))

/-- Row p of the second linear layer: the 128 hidden features of node p against column j of the weights. -/
def lin2 (h : Arr 100000 128) (w : Arr 128 64) : Arr 100000 64 :=
  fun i => ∑ q : Fin 128, h (ix2 (i 0) q) * w (ix2 q (i 1))

/-- The bias vector added to every row (128 columns). -/
def bias128 (a : Arr 100000 128) (b : Fin 128 → EReal) : Arr 100000 128 := fun i => a i + b (i 1)

/-- The bias vector added to every row (64 columns). -/
def bias64 (a : Arr 100000 64) (b : Fin 64 → EReal) : Arr 100000 64 := fun i => a i + b (i 1)

/-- The exponential linear unit on an extended real. -/
def elu (v : EReal) : EReal := if 0 < v then v else Ideal.exp v - 1

/-- The largest entry of row p, as a fold of `max` from the word of minus infinity (kept as its word: both programs
    start their maximum from that same word, so it is never evaluated). -/
def rowMax (v : Arr 100000 64) (p : Fin 100000) : EReal :=
  (Finset.univ : Finset (Fin 64)).fold max (Ideal.ofBits .f32 0xFF800000#32) (fun q => v (ix2 p q))

/-- The softmax of every row: exp (v - rowMax) over the row's sum of those exponentials. -/
def softmax (v : Arr 100000 64) : Arr 100000 64 :=
  fun i => Ideal.div (Ideal.exp (v i - rowMax v (i 0))) (∑ q : Fin 64, Ideal.exp (v (ix2 (i 0) q) - rowMax v (i 0)))

/-- The hidden layer after the first round: elu of the collected, biased first linear layer. -/
def hidden (agg128 : Arr 100000 128 → Arr 100000 128) (x : Arr 100000 256) (w1 : Arr 256 128) (b1 : Fin 128 → EReal) :
    Arr 100000 128 :=
  fun i => elu (bias128 (agg128 (lin1 x w1)) b1 i)

/-- The whole network's output. -/
def out (agg128 : Arr 100000 128 → Arr 100000 128) (agg64 : Arr 100000 64 → Arr 100000 64)
    (x : Arr 100000 256) (w1 : Arr 256 128) (b1 : Fin 128 → EReal) (w2 : Arr 128 64) (b2 : Fin 64 → EReal) : Arr 100000 64 :=
  softmax (bias64 (agg64 (lin2 (hidden agg128 x w1 b1) w2)) b2)

end Cert.Spec

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.Region0.lean ====
/-
  The first pallas_call: rows of x against the first weight matrix. The grid has 50 points; point t loads rows
  2000·t … 2000·t + 1999 of x and the whole weight matrix, and writes back rows 2000·t … of the product. Entry
  (p, q) of a block's product is the sum over the 256 shared positions of x-row times weight-column, so the block
  written at point t is the restriction to those rows of ONE function of the whole arrays, `Spec.lin1`; the 50 blocks
  tile the 100000 rows, so the array after the region is that function.
-/
import proofs.«156804_j75565654606208_2_alg».proof.Proof.Gen.KernelIdeal.Frame
import proofs.«156804_j75565654606208_2_alg».proof.Proof.Spec
import proofs.«156804_j75565654606208_2_alg».proof.Proof.LibMatmul
import Idealize.ShloMosaic.Lib.ValueIdx
import Idealize.ShloMosaic.Lib.Pipeline.Value

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- Entry (p, q) of the body's stored block: row p of the loaded rows against column q of the loaded weights. -/
theorem pay_apply (x0 : Vec Ideal S2000x256 .f32) (x1 : Vec Ideal S256x128 .f32) (p : Fin 2000) (q : Fin 128) :
    k0_pay1 (F := Ideal) x0 x1 (ix2 p q) = ∑ j : Fin 256, x0 (ix2 p j) * x1 (ix2 j q) := by
  unfold k0_pay1
  exact matmul_zero_ix2 dot_S2000x256_S256x128_S2000x128_1_0_0_1_n_n rfl rfl rfl rfl rfl rfl none _ _ p q

/-- A block whose loaded rows are rows r·2000 … of X, against the whole of W, is those rows of `lin1 X W`. -/
theorem block_eq (x0 : Vec Ideal S2000x256 .f32) (x1 : Vec Ideal S256x128 .f32) (X : Spec.Arr 100000 256) (W : Spec.Arr 256 128)
    (r : ℕ) (hr : r < 50)
    (h0 : ∀ (p : Fin 2000) (j : Fin 256), x0 (ix2 p j) = X (ix2 ⟨r * 2000 + p.val, by have := p.isLt; omega⟩ j))
    (h1 : ∀ (j : Fin 256) (q : Fin 128), x1 (ix2 j q) = W (ix2 j q)) (p : Fin 2000) (q : Fin 128) :
    k0_pay1 (F := Ideal) x0 x1 (ix2 p q) = Spec.lin1 X W (ix2 ⟨r * 2000 + p.val, by have := p.isLt; omega⟩ q) := by
  rw [pay_apply]
  unfold Spec.lin1
  exact Finset.sum_congr rfl fun j _ => by rw [h0, h1]

variable (V : (c : Dev nD) → (b : Ref sig .tc) → Buf (Elt Ideal) ((c : Thread nD τ).loc b))

theorem hz : (![0, 0] : Fin 2 → Nat) = fun _ => 0 := funext fun a => by fin_cases a <;> rfl

/-- The printed block index maps over the grid: the row-tiled windows sit at block row t, the weights at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `lin1` of the arrays as the region finds them. -/
theorem flushed_eq (c : Dev nD) (t : Fin cfg0.N) :
    (dat0 (F := Ideal) V c).flushed 2 t
      = ((cfg0.win 2).blk t).view.read (Elt Ideal) (Spec.lin1 (V c main_arg0) (V c main_arg2)) := by
  show (cfg0.win 2).cut (grid0.coords t) ((dat0 V c).after 2 t) = _
  rw [after0_2]
  unfold out0_2
  rw [View.canon_unit_zero hz]
  simp only [View.ld_unit_zero (S := S2000x256) hz, View.ld_unit_zero (S := S256x128) hz]
  obtain ⟨e0, e1, e2, e3, e4, e5⟩ := idx_facts t
  have ht : t.val < 50 := by have h := t.isLt; have hN : cfg0.N = 50 := N_0; omega
  funext y
  obtain ⟨p, q, rfl⟩ : ∃ (p : Fin 2000) (q : Fin 128), y = ix2 p q := ⟨y 0, y 1, eq_ix2 y⟩
  show k0_pay1 (iblk0 V c 0 t) (iblk0 V c 1 t) (ix2 p q)
    = Spec.lin1 (V c main_arg0) (V c main_arg2) (((cfg0.win 2).blk t).view.emb (ix2 p q))
  refine (block_eq (iblk0 V c 0 t) (iblk0 V c 1 t) (V c main_arg0) (V c main_arg2) t.val ht ?_ ?_ p q).trans ?_
  · intro p' j
    show V c main_arg0 (((cfg0.win 0).blk t).view.emb (ix2 p' j)) = _
    refine congrArg _ ?_
    funext a; apply Fin.ext
    match a with
    | ⟨0, _⟩ => show win0_0.index t (0 : Fin 2) * 2000 + 1 * p'.val = t.val * 2000 + p'.val; omega
    | ⟨1, _⟩ => show win0_0.index t (1 : Fin 2) * 256 + 1 * j.val = j.val; omega
  · intro j q'
    show V c main_arg2 (((cfg0.win 1).blk t).view.emb (ix2 j q')) = _
    refine congrArg _ ?_
    funext a; apply Fin.ext
    match a with
    | ⟨0, _⟩ => show win0_1.index t (0 : Fin 2) * 256 + 1 * j.val = j.val; omega
    | ⟨1, _⟩ => show win0_1.index t (1 : Fin 2) * 128 + 1 * q'.val = q'.val; omega
  · refine congrArg _ ?_
    funext a; apply Fin.ext
    match a with
    | ⟨0, _⟩ => show t.val * 2000 + p.val = win0_2.index t (0 : Fin 2) * 2000 + 1 * p.val; omega
    | ⟨1, _⟩ => show q.val = win0_2.index t (1 : Fin 2) * 128 + 1 * q.val; omega

/-- An index of the array is in point t's block iff each coordinate is in the block's range on its axis. -/
theorem mem_blk (t : Fin cfg0.N) (i : S100000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v4).slice (win0_2.rect t)).set ↔ _
  rw [View.set_slice_whole, Rect.mem_set_unit]
  exact Iff.rfl

/-- Every row is in the block of the point numbered by the row's quotient by 2000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  refine ⟨⟨(i 0).val / 2000, by omega⟩, flush0_2 _, ?_⟩
  rw [mem_blk]
  obtain ⟨e0, e1, e2, e3, e4, e5⟩ := idx_facts ⟨(i 0).val / 2000, by omega⟩
  intro a
  match a with
  | ⟨0, _⟩ =>
    show win0_2.index ⟨(i 0).val / 2000, _⟩ (0 : Fin 2) * 2000 ≤ (i 0).val
      ∧ (i 0).val < win0_2.index ⟨(i 0).val / 2000, _⟩ (0 : Fin 2) * 2000 + 2000
    rw [e4]; show (i 0).val / 2000 * 2000 ≤ (i 0).val ∧ (i 0).val < (i 0).val / 2000 * 2000 + 2000; omega
  | ⟨1, _⟩ =>
    show win0_2.index ⟨(i 0).val / 2000, _⟩ (1 : Fin 2) * 128 ≤ (i 1).val
      ∧ (i 1).val < win0_2.index ⟨(i 0).val / 2000, _⟩ (1 : Fin 2) * 128 + 128
    rw [e5]; omega

/-- The array after the region: `lin1` of the two input arrays as the region finds them. -/
theorem final (c : Dev nD) :
    (dat0 (F := Ideal) V c).arrAt 2 cfg0.N = Spec.lin1 (V c main_arg0) (V c main_arg2) :=
  (dat0 (F := Ideal) V c).arrAt_eq_of_cover 2 _ (fun t _ => flushed_eq V c t) cover

end Cert.KernelIdeal.Region0

end
-- ==== Proof.Pay1.lean ====
/-
  The fused region's block as one function of the three blocks it reads, entry by entry on the extended reals: the
  bias row is added to every row of the 2000 x 128 block, the exponential linear unit is applied entrywise, and the
  result is multiplied into the 128 x 64 weights. Entry (p, q) of the block is therefore the sum over k of
  elu (x (p, k) + b (0, k)) times w (k, q). The two format changes around the product are the identity on extended
  reals, and the product accumulates into the zero block, so nothing else is left in the sum.
-/
import proofs.«156804_j75565654606208_2_alg».proof.Proof.Gen.KernelIdeal.Skeleton
import proofs.«156804_j75565654606208_2_alg».proof.Proof.Spec
import proofs.«156804_j75565654606208_2_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay1

open Idealize.ShloMosaic Idealize.ShloMosaic.ValueIdx Cert.KernelIdeal Cert.KernelIdeal.Gen

/-- The word 0x3F800000 encodes the extended real 1. -/
theorem ofBits_one_f32 : Ideal.ofBits .f32 0x3F800000#32 = 1 := by
  simp [Ideal.ofBits, Ideal.ieee, -EReal.coe_mul]; norm_num

/-- The kernel's spelling of elu on an extended real is the specification's: where v is positive the comparison's bit
    is 1 and the select takes v; elsewhere the bit is 0, the minimum of v and 0 is v, and the select takes
    exp v - 1. -/
theorem elu_kernel (v : EReal) :
    Scalar.select (Ideal.cmp .ogt v (Ideal.ofBits .f32 0x00000000#32)) v
      (Ideal.exp (min v (Ideal.ofBits .f32 0x00000000#32)) - Ideal.ofBits .f32 0x3F800000#32) = Cert.Spec.elu v := by
  rw [Ideal.ofBits_zero_f32, ofBits_one_f32]
  unfold Cert.Spec.elu
  by_cases h : 0 < v
  · have hc : Ideal.cmp .ogt v 0 = 1#1 := by simp [Ideal.cmp, h]
    rw [hc, select_one, if_pos h]
  · have hc : Ideal.cmp .ogt v 0 = 0#1 := by simp [Ideal.cmp, h]
    rw [hc, select_zero, if_neg h, min_eq_left (not_lt.mp h)]

/-- Entry (p, q) of the fused block: the sum over the 128 hidden features k of elu (x0 (p, k) + x1 (0, k)) times
    x2 (k, q). -/
theorem pay1_apply (x0 : Vec Ideal S2000x128 .f32) (x1 : Vec Ideal S1x128 .f32) (x2 : Vec Ideal S128x64 .f32)
    (p : Fin 2000) (q : Fin 64) :
    Gen.k1_pay1 (F := Ideal) x0 x1 x2 (ix2 p q)
      = ∑ k : Fin 128, Cert.Spec.elu (x0 (ix2 p k) + x1 (ix2 0 k)) * x2 (ix2 k q) := by
  unfold Gen.k1_pay1
  -- the outer format change is the identity; the product into the zero block is the plain sum over k
  refine (matmul_zero_ix2 dot_S2000x128_S128x64_S2000x64_1_0_0_1_n_n rfl rfl rfl rfl rfl rfl none _ _ p q).trans ?_
  refine Finset.sum_congr rfl fun k _ => ?_
  -- the left factor at (p, k) is elu of whatever the biased block is there
  have hE : ∀ A : FVec Ideal S2000x128 .f32,
      (truncf .bf16
        (select (cmpf .ogt A (broadcast S2000x128 (FloatOps.ofBits .f32 0x00000000#32))) A
          (subf (exp (minimumf A (broadcast S2000x128 (FloatOps.ofBits .f32 0x00000000#32))))
            (broadcast S2000x128 (FloatOps.ofBits .f32 0x3F800000#32))))
        bitsLt_bf16_f32 : FVec Ideal S2000x128 .bf16) (ix2 p k) = Cert.Spec.elu (A (ix2 p k)) :=
    fun A => elu_kernel (A (ix2 p k))
  refine (congrArg (· * (truncf .bf16 x2 bitsLt_bf16_f32 : FVec Ideal S128x64 .bf16) (ix2 k q)) (hE _)).trans ?_
  -- the biased block at (p, k): the block there plus the bias row's entry k
  show Cert.Spec.elu (shapeCast S2000x128 x0 shapeCasts_S2000x128_S2000x128 (ix2 p k)
      + broadcastTo S2000x128 (shapeCast S1x128 x1 shapeCasts_S1x128_S1x128) broadcasts_S1x128_S2000x128 (ix2 p k))
      * x2 (ix2 k q) = _
  rw [shapeCast_self, shapeCast_self, broadcastTo_1b_ab_apply]

end Cert.KernelIdeal.Pay1

end
-- ==== Proof.Region1.lean ====
/-
  The second tiled region: the collected hidden features get their bias and the exponential linear unit, then go against
  the second weight matrix. The grid has 50 points; point t loads rows 2000·t … 2000·t + 1999 of the collected array, the
  whole bias row and the whole weight matrix, and writes back rows 2000·t … of the product. Entry (p, q) of a block is
  the sum over the 128 hidden features k of elu (collected (p, k) + bias k) times weight (k, q), so the block written
  at point t is the restriction to those rows of ONE function of the whole arrays, `Spec.lin2` of the biased, activated
  array; the 50 blocks tile the 100000 rows, so the array after the region is that function.
-/
import proofs.«156804_j75565654606208_2_alg».proof.Proof.Gen.KernelIdeal.Frame
import proofs.«156804_j75565654606208_2_alg».proof.Proof.Spec
import proofs.«156804_j75565654606208_2_alg».proof.Proof.Pay1
import Idealize.ShloMosaic.Lib.ValueIdx
import Idealize.ShloMosaic.Lib.Pipeline.Value

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- A block whose loaded rows are rows r·2000 … of the collected array H, with the whole bias row B and the whole
    weights W, is those rows of `lin2` of the biased, activated H against W. -/
theorem block_eq (x0 : Vec Ideal S2000x128 .f32) (x1 : Vec Ideal S1x128 .f32) (x2 : Vec Ideal S128x64 .f32)
    (H : Spec.Arr 100000 128) (B : Spec.Arr 1 128) (W : Spec.Arr 128 64) (r : ℕ) (hr : r < 50)
    (h0 : ∀ (p : Fin 2000) (k : Fin 128), x0 (ix2 p k) = H (ix2 ⟨r * 2000 + p.val, by have := p.isLt; omega⟩ k))
    (h1 : ∀ (k : Fin 128), x1 (ix2 0 k) = B (ix2 0 k))
    (h2 : ∀ (k : Fin 128) (q : Fin 64), x2 (ix2 k q) = W (ix2 k q)) (p : Fin 2000) (q : Fin 64) :
    k1_pay1 (F := Ideal) x0 x1 x2 (ix2 p q)
      = Spec.lin2 (fun i => Spec.elu (Spec.bias128 H (fun k => B (ix2 0 k)) i)) W
          (ix2 ⟨r * 2000 + p.val, by have := p.isLt; omega⟩ q) := by
  rw [Pay1.pay1_apply]
  unfold Spec.lin2 Spec.bias128
  exact Finset.sum_congr rfl fun k _ => by rw [h0, h1, h2]

variable (V : (c : Dev nD) → (b : Ref sig .tc) → Buf (Elt Ideal) ((c : Thread nD τ).loc b))

theorem hz : (![0, 0] : Fin 2 → Nat) = fun _ => 0 := funext fun a => by fin_cases a <;> rfl

/-- The printed block index maps over the grid: the two row-tiled windows sit at block row t, the bias row and the
    weights at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point t writes back is block t of `lin2` of the biased, activated collected array, of the arrays as the region
    finds them. -/
theorem flushed_eq (c : Dev nD) (t : Fin cfg1.N) :
    (dat1 (F := Ideal) V c).flushed 3 t
      = ((cfg1.win 3).blk t).view.read (Elt Ideal)
          (Spec.lin2 (fun i => Spec.elu (Spec.bias128 (V c main_v15) (fun k => V c main_v16 (ix2 0 k)) i)) (V c main_arg4)) := by
  show (cfg1.win 3).cut (grid1.coords t) ((dat1 V c).after 3 t) = _
  rw [after1_3]
  unfold out1_3
  rw [View.canon_unit_zero hz]
  simp only [View.ld_unit_zero (S := S2000x128) hz, View.ld_unit_zero (S := S1x128) hz, View.ld_unit_zero (S := S128x64) hz]
  obtain ⟨e0, e1, e2, e3, e4, e5, e6, e7⟩ := idx_facts t
  have ht : t.val < 50 := by have h := t.isLt; have hN : cfg1.N = 50 := N_1; omega
  funext y
  obtain ⟨p, q, rfl⟩ : ∃ (p : Fin 2000) (q : Fin 64), y = ix2 p q := ⟨y 0, y 1, eq_ix2 y⟩
  show k1_pay1 (iblk1 V c 0 t) (iblk1 V c 1 t) (iblk1 V c 2 t) (ix2 p q)
    = Spec.lin2 (fun i => Spec.elu (Spec.bias128 (V c main_v15) (fun k => V c main_v16 (ix2 0 k)) i)) (V c main_arg4)
        (((cfg1.win 3).blk t).view.emb (ix2 p q))
  refine (block_eq (iblk1 V c 0 t) (iblk1 V c 1 t) (iblk1 V c 2 t) (V c main_v15) (V c main_v16) (V c main_arg4)
    t.val ht ?_ ?_ ?_ p q).trans ?_
  · intro p' k
    show V c main_v15 (((cfg1.win 0).blk t).view.emb (ix2 p' k)) = _
    refine congrArg _ ?_
    funext a; apply Fin.ext
    match a with
    | ⟨0, _⟩ => show win1_0.index t (0 : Fin 2) * 2000 + 1 * p'.val = t.val * 2000 + p'.val; omega
    | ⟨1, _⟩ => show win1_0.index t (1 : Fin 2) * 128 + 1 * k.val = k.val; omega
  · intro k
    show V c main_v16 (((cfg1.win 1).blk t).view.emb (ix2 0 k)) = _
    refine congrArg _ ?_
    funext a; apply Fin.ext
    match a with
    | ⟨0, _⟩ => show win1_1.index t (0 : Fin 2) * 1 + 1 * (0 : Fin 1).val = (0 : Fin 1).val; omega
    | ⟨1, _⟩ => show win1_1.index t (1 : Fin 2) * 128 + 1 * k.val = k.val; omega
  · intro k q'
    show V c main_arg4 (((cfg1.win 2).blk t).view.emb (ix2 k q')) = _
    refine congrArg _ ?_
    funext a; apply Fin.ext
    match a with
    | ⟨0, _⟩ => show win1_2.index t (0 : Fin 2) * 128 + 1 * k.val = k.val; omega
    | ⟨1, _⟩ => show win1_2.index t (1 : Fin 2) * 64 + 1 * q'.val = q'.val; omega
  · refine congrArg _ ?_
    funext a; apply Fin.ext
    match a with
    | ⟨0, _⟩ => show t.val * 2000 + p.val = win1_3.index t (0 : Fin 2) * 2000 + 1 * p.val; omega
    | ⟨1, _⟩ => show q.val = win1_3.index t (1 : Fin 2) * 64 + 1 * q.val; omega

/-- An index of the array is in point t's block iff each coordinate is in the block's range on its axis. -/
theorem mem_blk (t : Fin cfg1.N) (i : S100000x64.Idx) :
    i ∈ ((cfg1.win 3).blk t).view.set ↔ ∀ a : Fin 2, win1_3.index t a * S2000x64.size a ≤ (i a).val
      ∧ (i a).val < win1_3.index t a * S2000x64.size a + S2000x64.size a := by
  show i ∈ ((View.whole main_v17).slice (win1_3.rect t)).set ↔ _
  rw [View.set_slice_whole, Rect.mem_set_unit]
  exact Iff.rfl

/-- Every row is in the block of the point numbered by the row's quotient by 2000. -/
theorem cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 50 := N_1
  refine ⟨⟨(i 0).val / 2000, by omega⟩, flush1_3 _, ?_⟩
  rw [mem_blk]
  obtain ⟨e0, e1, e2, e3, e4, e5, e6, e7⟩ := idx_facts ⟨(i 0).val / 2000, by omega⟩
  intro a
  match a with
  | ⟨0, _⟩ =>
    show win1_3.index ⟨(i 0).val / 2000, _⟩ (0 : Fin 2) * 2000 ≤ (i 0).val
      ∧ (i 0).val < win1_3.index ⟨(i 0).val / 2000, _⟩ (0 : Fin 2) * 2000 + 2000
    rw [e6]; show (i 0).val / 2000 * 2000 ≤ (i 0).val ∧ (i 0).val < (i 0).val / 2000 * 2000 + 2000; omega
  | ⟨1, _⟩ =>
    show win1_3.index ⟨(i 0).val / 2000, _⟩ (1 : Fin 2) * 64 ≤ (i 1).val
      ∧ (i 1).val < win1_3.index ⟨(i 0).val / 2000, _⟩ (1 : Fin 2) * 64 + 64
    rw [e7]; omega

/-- The array after the region: `lin2` of the biased, activated collected array against the second weights, of the
    arrays as the region finds them. -/
theorem final (c : Dev nD) :
    (dat1 (F := Ideal) V c).arrAt 3 cfg1.N
      = Spec.lin2 (fun i => Spec.elu (Spec.bias128 (V c main_v15) (fun k => V c main_v16 (ix2 0 k)) i)) (V c main_arg4) :=
  (dat1 (F := Ideal) V c).arrAt_eq_of_cover 3 _ (fun t _ => flushed_eq V c t) cover

end Cert.KernelIdeal.Region1

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.Pay2.lean ====
/-
  The softmax block of the idealized kernel, read entry by entry on the extended reals.

  The block takes a 2000 x 64 array and a 1 x 64 bias row. It adds the bias row to every row, takes each row's
  maximum (a fold of max from the word of minus infinity, kept as its word), subtracts it from the row, takes the
  exponential, sums each row of exponentials, and divides. Each stage is read at an entry (p, q): the biased entry
  is the sum of the two operands' entries; the row maximum cast to a column and laid along the row is the maximum of
  row p; likewise the row sum. So entry (p, q) of the result is exp (biased p q - max of row p) over the sum over the
  64 lanes k of exp (biased p k - max of row p).
-/
import proofs.«156804_j75565654606208_2_alg».proof.Proof.Gen.KernelIdeal.Skeleton
import proofs.«156804_j75565654606208_2_alg».proof.Proof.Spec
import proofs.«156804_j75565654606208_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay2

open Idealize.ShloMosaic Idealize.ShloMosaic.ValueIdx Cert.KernelIdeal Cert.KernelIdeal.Gen

/-- Entry (p, q) of the biased block: the block's entry plus the bias row's entry of column q. -/
def biased (x0 : Vec Ideal S2000x64 .f32) (x1 : Vec Ideal S1x64 .f32) (p : Fin 2000) (q : Fin 64) : EReal :=
  x0 (ix2 p q) + x1 (ix2 (0 : Fin 1) q)

/-- The maximum of row p of the biased block: the fold of max over the 64 lanes from the word of minus infinity. -/
def blockMax (x0 : Vec Ideal S2000x64 .f32) (x1 : Vec Ideal S1x64 .f32) (p : Fin 2000) : EReal :=
  (Finset.univ : Finset (Fin 64)).fold max (Ideal.ofBits .f32 0xFF800000#32) (fun k => biased x0 x1 p k)

/-- In a reduction of a 2000 x 64 array along its lanes, the source index over row p with lane k inserted is (p, k). -/
theorem lift_ix2 (h : S2000x64.Reduces [1] S2000) (p : Fin 2000) (k : Fin 64) : h.lift (ix1 p) k = ix2 p k := by
  funext a
  match a with
  | ⟨0, _⟩ => exact Fin.ext rfl
  | ⟨1, _⟩ => exact Fin.ext rfl

/-- A maximum along the lanes, read at row p: the fold of max over the row's 64 entries. -/
theorem laneMax_apply (src : FVec Ideal S2000x64 .f32) (acc : BitVec 32) (h : S2000x64.Reduces [1] S2000)
    (hφ : FKind.Formats .f32) (hacc : acc = FKind.maximumf.neutral .f32 hφ) (p : Fin 2000) :
    multiReduction .maximumf [1] S2000 src acc h hφ hacc (ix1 p)
      = (Finset.univ : Finset (Fin 64)).fold max (Ideal.ofBits .f32 acc) (fun k => src (ix2 p k)) := by
  refine (Ideal.multiReduction_maximumf_single src acc h hφ hacc (ix1 p)).trans ?_
  show (Finset.univ : Finset (Fin 64)).fold max (Ideal.ofBits .f32 acc) (src ∘ h.lift (ix1 p)) = _
  exact congrArg (fun f : Fin 64 → EReal => (Finset.univ : Finset (Fin 64)).fold max (Ideal.ofBits .f32 acc) f)
    (funext fun k => congrArg src (lift_ix2 h p k))

/-- A sum along the lanes, read at row p: the sum of the row's 64 entries. -/
theorem laneSum_apply (src : FVec Ideal S2000x64 .f32) (acc : BitVec 32) (h : S2000x64.Reduces [1] S2000)
    (hφ : FKind.Formats .f32) (hacc : acc = FKind.add.neutral .f32 hφ) (p : Fin 2000) :
    multiReduction .add [1] S2000 src acc h hφ hacc (ix1 p) = ∑ k : Fin 64, src (ix2 p k) := by
  refine (Ideal.multiReduction_add_single src acc h hφ hacc (ix1 p)).trans ?_
  show ∑ k : Fin 64, src (h.lift (ix1 p) k) = _
  exact Finset.sum_congr rfl fun k _ => congrArg src (lift_ix2 h p k)

/-- The biased block as the kernel builds it: the block plus the bias row laid along every row. -/
def blk (x0 : Vec Ideal S2000x64 .f32) (x1 : Vec Ideal S1x64 .f32) : FVec Ideal S2000x64 .f32 :=
  addf (shapeCast S2000x64 x0 shapeCasts_S2000x64_S2000x64)
    (broadcastTo S2000x64 (shapeCast S1x64 x1 shapeCasts_S1x64_S1x64) broadcasts_S1x64_S2000x64)

theorem blk_apply (x0 : Vec Ideal S2000x64 .f32) (x1 : Vec Ideal S1x64 .f32) (p : Fin 2000) (q : Fin 64) :
    blk x0 x1 (ix2 p q) = biased x0 x1 p q := by
  show shapeCast S2000x64 x0 shapeCasts_S2000x64_S2000x64 (ix2 p q)
      + broadcastTo S2000x64 (shapeCast S1x64 x1 shapeCasts_S1x64_S1x64) broadcasts_S1x64_S2000x64 (ix2 p q) = _
  rw [shapeCast_self, shapeCast_self, broadcastTo_1b_ab_apply]
  rfl

/-- The row maxima as the kernel builds them. -/
def mx (x0 : Vec Ideal S2000x64 .f32) (x1 : Vec Ideal S1x64 .f32) : FVec Ideal S2000 .f32 :=
  multiReduction .maximumf [1] S2000 (blk x0 x1) 0xFF800000#32 reduces_S2000x64_S2000 (.inl rfl) rfl

theorem mx_apply (x0 : Vec Ideal S2000x64 .f32) (x1 : Vec Ideal S1x64 .f32) (p : Fin 2000) :
    mx x0 x1 (ix1 p) = blockMax x0 x1 p := by
  refine (laneMax_apply (blk x0 x1) 0xFF800000#32 reduces_S2000x64_S2000 (.inl rfl) rfl p).trans ?_
  exact congrArg (fun f : Fin 64 → EReal => (Finset.univ : Finset (Fin 64)).fold max (Ideal.ofBits .f32 0xFF800000#32) f)
    (funext fun k => blk_apply x0 x1 p k)

/-- The exponentials of the shifted block as the kernel builds them. -/
def ex (x0 : Vec Ideal S2000x64 .f32) (x1 : Vec Ideal S1x64 .f32) : FVec Ideal S2000x64 .f32 :=
  exp (subf (blk x0 x1)
    (broadcastTo S2000x64 (shapeCast S2000x1 (mx x0 x1) shapeCasts_S2000_S2000x1) broadcasts_S2000x1_S2000x64))

theorem ex_apply (x0 : Vec Ideal S2000x64 .f32) (x1 : Vec Ideal S1x64 .f32) (p : Fin 2000) (q : Fin 64) :
    ex x0 x1 (ix2 p q) = Ideal.exp (biased x0 x1 p q - blockMax x0 x1 p) := by
  show Ideal.exp (blk x0 x1 (ix2 p q)
      - broadcastTo S2000x64 (shapeCast S2000x1 (mx x0 x1) shapeCasts_S2000_S2000x1) broadcasts_S2000x1_S2000x64 (ix2 p q)) = _
  rw [blk_apply, broadcastTo_column_apply, mx_apply]

/-- The row sums of the exponentials as the kernel builds them. -/
def sm (x0 : Vec Ideal S2000x64 .f32) (x1 : Vec Ideal S1x64 .f32) : FVec Ideal S2000 .f32 :=
  multiReduction .add [1] S2000 (ex x0 x1) 0x00000000#32 reduces_S2000x64_S2000 (.inl rfl) rfl

theorem sm_apply (x0 : Vec Ideal S2000x64 .f32) (x1 : Vec Ideal S1x64 .f32) (p : Fin 2000) :
    sm x0 x1 (ix1 p) = ∑ k : Fin 64, Ideal.exp (biased x0 x1 p k - blockMax x0 x1 p) := by
  refine (laneSum_apply (ex x0 x1) 0x00000000#32 reduces_S2000x64_S2000 (.inl rfl) rfl p).trans ?_
  exact Finset.sum_congr rfl fun k _ => ex_apply x0 x1 p k

/-- The block's result is the quotient of the exponentials by their row sums laid along the rows. -/
theorem k2_pay1_eq (x0 : Vec Ideal S2000x64 .f32) (x1 : Vec Ideal S1x64 .f32) :
    Gen.k2_pay1 (F := Ideal) x0 x1
      = divf (ex x0 x1)
          (broadcastTo S2000x64 (shapeCast S2000x1 (sm x0 x1) shapeCasts_S2000_S2000x1) broadcasts_S2000x1_S2000x64) := rfl

/-- Entry (p, q) of the softmax block. -/
theorem pay2_apply (x0 : Vec Ideal S2000x64 .f32) (x1 : Vec Ideal S1x64 .f32) (p : Fin 2000) (q : Fin 64) :
    Gen.k2_pay1 (F := Ideal) x0 x1 (ix2 p q)
      = Ideal.div (Ideal.exp (biased x0 x1 p q - blockMax x0 x1 p))
          (∑ k : Fin 64, Ideal.exp (biased x0 x1 p k - blockMax x0 x1 p)) := by
  rw [k2_pay1_eq]
  show Ideal.div (ex x0 x1 (ix2 p q))
      (broadcastTo S2000x64 (shapeCast S2000x1 (sm x0 x1) shapeCasts_S2000_S2000x1) broadcasts_S2000x1_S2000x64 (ix2 p q)) = _
  rw [ex_apply, broadcastTo_column_apply, sm_apply]

end Cert.KernelIdeal.Pay2

end
-- ==== Proof.Region2.lean ====
/-
  The third region: the bias row added to the collected rows, and the softmax of every row. The grid has 50
  points; point t loads rows 2000·t … 2000·t + 1999 of the collected array and the whole bias row, and writes back
  the softmax of those biased rows. A row's softmax reads only that row, so the block written at point t is the
  restriction to those rows of ONE function of the whole arrays, the softmax of the biased array; the 50 blocks tile
  the 100000 rows, so the array after the region is that function.
-/
import proofs.«156804_j75565654606208_2_alg».proof.Proof.Gen.KernelIdeal.Frame
import proofs.«156804_j75565654606208_2_alg».proof.Proof.Spec
import proofs.«156804_j75565654606208_2_alg».proof.Proof.Pay2
import Idealize.ShloMosaic.Lib.ValueIdx
import Idealize.ShloMosaic.Lib.Pipeline.Value

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- A block whose loaded rows are rows r·2000 … of X, with the bias row b, is those rows of the softmax of X biased
    by b: the biased entries agree entry by entry, hence the row maxima, the exponentials and the row sums. -/
theorem block_eq (x0 : Vec Ideal S2000x64 .f32) (x1 : Vec Ideal S1x64 .f32) (X : Spec.Arr 100000 64) (b : Fin 64 → EReal)
    (r : ℕ) (hr : r < 50)
    (h0 : ∀ (p : Fin 2000) (j : Fin 64), x0 (ix2 p j) = X (ix2 ⟨r * 2000 + p.val, by have := p.isLt; omega⟩ j))
    (h1 : ∀ j : Fin 64, x1 (ix2 (0 : Fin 1) j) = b j) (p : Fin 2000) (q : Fin 64) :
    k2_pay1 (F := Ideal) x0 x1 (ix2 p q)
      = Spec.softmax (Spec.bias64 X b) (ix2 ⟨r * 2000 + p.val, by have := p.isLt; omega⟩ q) := by
  have hb : ∀ k : Fin 64, Pay2.biased x0 x1 p k
      = Spec.bias64 X b (ix2 ⟨r * 2000 + p.val, by have := p.isLt; omega⟩ k) := fun k => by
    unfold Pay2.biased Spec.bias64
    rw [h0, h1]
  have hm : Pay2.blockMax x0 x1 p = Spec.rowMax (Spec.bias64 X b) ⟨r * 2000 + p.val, by have := p.isLt; omega⟩ := by
    unfold Pay2.blockMax Spec.rowMax
    exact congrArg (fun f : Fin 64 → EReal => (Finset.univ : Finset (Fin 64)).fold max (Ideal.ofBits .f32 0xFF800000#32) f)
      (funext hb)
  rw [Pay2.pay2_apply, hm, hb q]
  show _ = Ideal.div (Ideal.exp (Spec.bias64 X b (ix2 ⟨r * 2000 + p.val, _⟩ q)
        - Spec.rowMax (Spec.bias64 X b) ⟨r * 2000 + p.val, _⟩))
      (∑ k : Fin 64, Ideal.exp (Spec.bias64 X b (ix2 ⟨r * 2000 + p.val, _⟩ k)
        - Spec.rowMax (Spec.bias64 X b) ⟨r * 2000 + p.val, _⟩))
  exact congrArg _ (Finset.sum_congr rfl fun k _ => by rw [hb k])

variable (V : (c : Dev nD) → (b : Ref sig .tc) → Buf (Elt Ideal) ((c : Thread nD τ).loc b))

theorem hz : (![0, 0] : Fin 2 → Nat) = fun _ => 0 := funext fun a => by fin_cases a <;> rfl

/-- The printed block index maps over the grid: the row-tiled windows sit at block row t, the bias row at block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the softmax of the biased array, of the arrays as the region finds them. -/
theorem flushed_eq (c : Dev nD) (t : Fin cfg2.N) :
    (dat2 (F := Ideal) V c).flushed 2 t
      = ((cfg2.win 2).blk t).view.read (Elt Ideal)
          (Spec.softmax (Spec.bias64 (V c main_v28) (fun q => V c main_v29 (ix2 (0 : Fin 1) q)))) := by
  show (cfg2.win 2).cut (grid2.coords t) ((dat2 V c).after 2 t) = _
  rw [after2_2]
  unfold out2_2
  rw [View.canon_unit_zero hz]
  simp only [View.ld_unit_zero (S := S2000x64) hz, View.ld_unit_zero (S := S1x64) hz]
  obtain ⟨e0, e1, e2, e3, e4, e5⟩ := idx_facts t
  have ht : t.val < 50 := by have h := t.isLt; have hN : cfg2.N = 50 := N_2; omega
  funext y
  obtain ⟨p, q, rfl⟩ : ∃ (p : Fin 2000) (q : Fin 64), y = ix2 p q := ⟨y 0, y 1, eq_ix2 y⟩
  show k2_pay1 (iblk2 V c 0 t) (iblk2 V c 1 t) (ix2 p q)
    = Spec.softmax (Spec.bias64 (V c main_v28) (fun q => V c main_v29 (ix2 (0 : Fin 1) q)))
        (((cfg2.win 2).blk t).view.emb (ix2 p q))
  refine (block_eq (iblk2 V c 0 t) (iblk2 V c 1 t) (V c main_v28) (fun q => V c main_v29 (ix2 (0 : Fin 1) q))
    t.val ht ?_ ?_ p q).trans ?_
  · intro p' j
    show V c main_v28 (((cfg2.win 0).blk t).view.emb (ix2 p' j)) = _
    refine congrArg _ ?_
    funext a; apply Fin.ext
    match a with
    | ⟨0, _⟩ => show win2_0.index t (0 : Fin 2) * 2000 + 1 * p'.val = t.val * 2000 + p'.val; omega
    | ⟨1, _⟩ => show win2_0.index t (1 : Fin 2) * 64 + 1 * j.val = j.val; omega
  · intro j
    show V c main_v29 (((cfg2.win 1).blk t).view.emb (ix2 (0 : Fin 1) j)) = V c main_v29 (ix2 (0 : Fin 1) j)
    refine congrArg _ ?_
    funext a; apply Fin.ext
    match a with
    | ⟨0, _⟩ => show win2_1.index t (0 : Fin 2) * 1 + 1 * 0 = 0; omega
    | ⟨1, _⟩ => show win2_1.index t (1 : Fin 2) * 64 + 1 * j.val = j.val; omega
  · refine congrArg _ ?_
    funext a; apply Fin.ext
    match a with
    | ⟨0, _⟩ => show t.val * 2000 + p.val = win2_2.index t (0 : Fin 2) * 2000 + 1 * p.val; omega
    | ⟨1, _⟩ => show q.val = win2_2.index t (1 : Fin 2) * 64 + 1 * q.val; omega

/-- An index of the array is in point t's block iff each coordinate is in the block's range on its axis. -/
theorem mem_blk (t : Fin cfg2.N) (i : S100000x64.Idx) :
    i ∈ ((cfg2.win 2).blk t).view.set ↔ ∀ a : Fin 2, win2_2.index t a * S2000x64.size a ≤ (i a).val
      ∧ (i a).val < win2_2.index t a * S2000x64.size a + S2000x64.size a := by
  show i ∈ ((View.whole main_v30).slice (win2_2.rect t)).set ↔ _
  rw [View.set_slice_whole, Rect.mem_set_unit]
  exact Iff.rfl

/-- Every row is in the block of the point numbered by the row's quotient by 2000. -/
theorem cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  refine ⟨⟨(i 0).val / 2000, by omega⟩, flush2_2 _, ?_⟩
  rw [mem_blk]
  obtain ⟨e0, e1, e2, e3, e4, e5⟩ := idx_facts ⟨(i 0).val / 2000, by omega⟩
  intro a
  match a with
  | ⟨0, _⟩ =>
    show win2_2.index ⟨(i 0).val / 2000, _⟩ (0 : Fin 2) * 2000 ≤ (i 0).val
      ∧ (i 0).val < win2_2.index ⟨(i 0).val / 2000, _⟩ (0 : Fin 2) * 2000 + 2000
    rw [e4]; show (i 0).val / 2000 * 2000 ≤ (i 0).val ∧ (i 0).val < (i 0).val / 2000 * 2000 + 2000; omega
  | ⟨1, _⟩ =>
    show win2_2.index ⟨(i 0).val / 2000, _⟩ (1 : Fin 2) * 64 ≤ (i 1).val
      ∧ (i 1).val < win2_2.index ⟨(i 0).val / 2000, _⟩ (1 : Fin 2) * 64 + 64
    rw [e5]; omega

/-- The array after the region: the softmax of the collected array biased by the bias row, as the region finds them. -/
theorem final (c : Dev nD) :
    (dat2 (F := Ideal) V c).arrAt 2 cfg2.N
      = Spec.softmax (Spec.bias64 (V c main_v28) (fun q => V c main_v29 (ix2 (0 : Fin 1) q))) :=
  (dat2 (F := Ideal) V c).arrAt_eq_of_cover 2 _ (fun t _ => flushed_eq V c t) cover

end Cert.KernelIdeal.Region2

end
-- ==== Proof.KValue.lean ====
/-
  The idealized kernel's result as one function of its argument arrays.

  The program is three pallas_calls among stretches of host operations. The buffer contents at each boundary are a
  fold from the launch memory: a stretch applies its operations, a region leaves each of its output arrays at what
  its 50 points wrote back. Walking that fold backwards from the result buffer: the last region leaves the softmax of
  the biased second collection; that collection is the gather and sum over edges of the second region's output; the
  second region's output is the second linear layer of elu of the biased first collection; which is the gather and
  sum over edges of the first region's output, the first linear layer of x. The edge sources and destinations are
  two rows of the edge array, sliced off before the first region and untouched afterwards; the two bias rows are the
  bias vectors reshaped to one row.
-/
import proofs.«156804_j75565654606208_2_alg».proof.Proof.Gen.KernelIdeal.Frame
import proofs.«156804_j75565654606208_2_alg».proof.Proof.Spec
import proofs.«156804_j75565654606208_2_alg».proof.Proof.Region0
import proofs.«156804_j75565654606208_2_alg».proof.Proof.Region1
import proofs.«156804_j75565654606208_2_alg».proof.Proof.Region2
import Idealize.ShloMosaic.Lib.ValueIdx
import Idealize.ShloMosaic.Lib.Pipeline.Value
import Idealize.ShloMosaic.Lib.StableHlo.Run

set_option maxRecDepth 16384

noncomputable section

open scoped BigOperators

namespace Cert.KernelIdeal.KValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The collection over edges on a 128-column node table: the table's rows gathered at the edges' (sign-normalised)
    sources `s`, then summed into the zero array at the edges' destinations `d`. Carried as one function of the
    table; never opened. -/
def aggK128 (s d : IVec S1600000 32) (h : FVec Ideal S100000x128 .bf16) : FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (extf .f32 (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s))) bitsLt_bf16_f32)

/-- The same collection on a 64-column node table. -/
def aggK64 (s d : IVec S1600000 32) (h : FVec Ideal S100000x64 .bf16) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 d)
    (extf .f32 (Host.gather gather_S100000x64_S1600000x1_S1600000x64_1_0_n_n_0_1_164 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s))) bitsLt_bf16_f32)

/-- The edges' sources: row 0 of the edge array. -/
def srcOf (e : IVec S2x1600000 32) : IVec S1600000 32 :=
  shapeCast S1600000 (extractStridedSlice S1x1600000 ![0, 0] e slices_S2x1600000_S1x1600000_0_0) shapeCasts_S1x1600000_S1600000

/-- The edges' destinations: row 1 of the edge array. -/
def dstOf (e : IVec S2x1600000 32) : IVec S1600000 32 :=
  shapeCast S1600000 (extractStridedSlice S1x1600000 ![1, 0] e slices_S2x1600000_S1x1600000_1_0) shapeCasts_S1x1600000_S1600000

/-- A vector of b entries reshaped to one row reads its entry k at (0, k). -/
theorem row_cast_apply {α : Type} {b : ℕ} (x : (⟨1, ![b]⟩ : Shape).Idx → α) (h : (⟨1, ![b]⟩ : Shape).ShapeCasts ⟨2, ![1, b]⟩)
    (u : Fin 1) (k : Fin b) : shapeCast ⟨2, ![1, b]⟩ x h (ix2 u k) = x (ix1 k) :=
  shapeCast_apply x h _ _ (by
    have hu : u.val = 0 := by omega
    rw [Shape.rowMajor_val_two, Shape.rowMajor_val_one]
    show k.val = u.val * b + k.val
    rw [hu, Nat.zero_mul, Nat.zero_add])

/-! ## Buffers a stretch of host operations or a region does not write keep their contents -/

theorem W1_main_arg0 (c : Dev nD) : W1 (F := Ideal) m ρ c (Proc.devRef .tc main_arg0) = W0 m ρ c (Proc.devRef .tc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_main_arg2 (c : Dev nD) : W1 (F := Ideal) m ρ c (Proc.devRef .tc main_arg2) = W0 m ρ c (Proc.devRef .tc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_main_arg3 (c : Dev nD) : W1 (F := Ideal) m ρ c (Proc.devRef .tc main_arg3) = W0 m ρ c (Proc.devRef .tc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_main_arg4 (c : Dev nD) : W1 (F := Ideal) m ρ c (Proc.devRef .tc main_arg4) = W0 m ρ c (Proc.devRef .tc main_arg4) :=
  StableHlo.after_of_forall_not_mem (b := Proc.devRef .tc main_arg4) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W1_main_arg5 (c : Dev nD) : W1 (F := Ideal) m ρ c (Proc.devRef .tc main_arg5) = W0 m ρ c (Proc.devRef .tc main_arg5) :=
  StableHlo.after_of_forall_not_mem (b := Proc.devRef .tc main_arg5) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W2_main_v1 (c : Dev nD) : W2 (F := Ideal) m ρ c (Proc.devRef .tc main_v1) = W1 m ρ c (Proc.devRef .tc main_v1) :=
  W2_of_ne m ρ c main_v1 (by decide)
theorem W2_main_v3 (c : Dev nD) : W2 (F := Ideal) m ρ c (Proc.devRef .tc main_v3) = W1 m ρ c (Proc.devRef .tc main_v3) :=
  W2_of_ne m ρ c main_v3 (by decide)
theorem W2_main_arg3 (c : Dev nD) : W2 (F := Ideal) m ρ c (Proc.devRef .tc main_arg3) = W1 m ρ c (Proc.devRef .tc main_arg3) :=
  W2_of_ne m ρ c main_arg3 (by decide)
theorem W2_main_arg4 (c : Dev nD) : W2 (F := Ideal) m ρ c (Proc.devRef .tc main_arg4) = W1 m ρ c (Proc.devRef .tc main_arg4) :=
  W2_of_ne m ρ c main_arg4 (by decide)
theorem W2_main_arg5 (c : Dev nD) : W2 (F := Ideal) m ρ c (Proc.devRef .tc main_arg5) = W1 m ρ c (Proc.devRef .tc main_arg5) :=
  W2_of_ne m ρ c main_arg5 (by decide)
theorem W3_main_v1 (c : Dev nD) : W3 (F := Ideal) m ρ c (Proc.devRef .tc main_v1) = W2 m ρ c (Proc.devRef .tc main_v1) :=
  StableHlo.after_of_forall_not_mem (b := Proc.devRef .tc main_v1) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_main_v3 (c : Dev nD) : W3 (F := Ideal) m ρ c (Proc.devRef .tc main_v3) = W2 m ρ c (Proc.devRef .tc main_v3) :=
  StableHlo.after_of_forall_not_mem (b := Proc.devRef .tc main_v3) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_main_arg4 (c : Dev nD) : W3 (F := Ideal) m ρ c (Proc.devRef .tc main_arg4) = W2 m ρ c (Proc.devRef .tc main_arg4) :=
  StableHlo.after_of_forall_not_mem (b := Proc.devRef .tc main_arg4) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W3_main_arg5 (c : Dev nD) : W3 (F := Ideal) m ρ c (Proc.devRef .tc main_arg5) = W2 m ρ c (Proc.devRef .tc main_arg5) :=
  StableHlo.after_of_forall_not_mem (b := Proc.devRef .tc main_arg5) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem W4_main_v1 (c : Dev nD) : W4 (F := Ideal) m ρ c (Proc.devRef .tc main_v1) = W3 m ρ c (Proc.devRef .tc main_v1) :=
  W4_of_ne m ρ c main_v1 (by decide)
theorem W4_main_v3 (c : Dev nD) : W4 (F := Ideal) m ρ c (Proc.devRef .tc main_v3) = W3 m ρ c (Proc.devRef .tc main_v3) :=
  W4_of_ne m ρ c main_v3 (by decide)
theorem W4_main_arg5 (c : Dev nD) : W4 (F := Ideal) m ρ c (Proc.devRef .tc main_arg5) = W3 m ρ c (Proc.devRef .tc main_arg5) :=
  W4_of_ne m ρ c main_arg5 (by decide)

/-! ## The boundary contents -/

theorem W1_main_v1 (c : Dev nD) : W1 (F := Ideal) m ρ c (Proc.devRef .tc main_v1) = srcOf (m ((c.tc : Thread nD τ).loc main_arg1)) := by
  show StableHlo.after hostOps0 (W0 m ρ c) (Proc.devRef .tc main_v1) = _
  after_results
  rfl

theorem W1_main_v3 (c : Dev nD) : W1 (F := Ideal) m ρ c (Proc.devRef .tc main_v3) = dstOf (m ((c.tc : Thread nD τ).loc main_arg1)) := by
  show StableHlo.after hostOps0 (W0 m ρ c) (Proc.devRef .tc main_v3) = _
  after_results
  rfl

theorem W3_main_v15 (c : Dev nD) : W3 (F := Ideal) m ρ c (Proc.devRef .tc main_v15)
    = aggK128 (W2 m ρ c (Proc.devRef .tc main_v1)) (W2 m ρ c (Proc.devRef .tc main_v3)) (W2 m ρ c (Proc.devRef .tc main_v4)) := by
  show StableHlo.after hostOps1 (W2 m ρ c) (Proc.devRef .tc main_v15) = _
  after_results
  rfl

theorem W3_main_v16 (c : Dev nD) : W3 (F := Ideal) m ρ c (Proc.devRef .tc main_v16)
    = shapeCast S1x128 (W2 m ρ c (Proc.devRef .tc main_arg3)) shapeCasts_S128_S1x128 := by
  show StableHlo.after hostOps1 (W2 m ρ c) (Proc.devRef .tc main_v16) = _
  after_results
  rfl

theorem W5_main_v28 (c : Dev nD) : W5 (F := Ideal) m ρ c (Proc.devRef .tc main_v28)
    = aggK64 (W4 m ρ c (Proc.devRef .tc main_v1)) (W4 m ρ c (Proc.devRef .tc main_v3)) (W4 m ρ c (Proc.devRef .tc main_v17)) := by
  show StableHlo.after hostOps2 (W4 m ρ c) (Proc.devRef .tc main_v28) = _
  after_results
  rfl

theorem W5_main_v29 (c : Dev nD) : W5 (F := Ideal) m ρ c (Proc.devRef .tc main_v29)
    = shapeCast S1x64 (W4 m ρ c (Proc.devRef .tc main_arg5)) shapeCasts_S64_S1x64 := by
  show StableHlo.after hostOps2 (W4 m ρ c) (Proc.devRef .tc main_v29) = _
  after_results
  rfl

/-! ## The run, with the result buffer read -/

set_option backward.isDefEq.respectTransparency.types false in
/-- Every weakly fair execution of the program ends with the result buffer and the six argument buffers at the last
    boundary's contents. -/
theorem run_mem : θ_run (defs (F := Ideal)) (onTc (τ := τ) (main (F := Ideal))) ⟨m, fun _ => 0, ρ⟩ (fun r => ∀ c : Dev nD,
      r.2.mem ((c.tc : Thread nD τ).loc main_v30) = W6 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v30 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

/-! ## The chain of values -/

/-- The kernel's result as one function of its argument arrays. -/
def kout (x : Spec.Arr 100000 256) (e : IVec S2x1600000 32) (w1 : Spec.Arr 256 128) (b1 : (⟨1, ![128]⟩ : Shape).Idx → EReal)
    (w2 : Spec.Arr 128 64) (b2 : (⟨1, ![64]⟩ : Shape).Idx → EReal) : Spec.Arr 100000 64 :=
  Spec.out (aggK128 (srcOf e) (dstOf e)) (aggK64 (srcOf e) (dstOf e)) x w1 (fun k => b1 (ix1 k)) w2 (fun k => b2 (ix1 k))

/-- After the first region its output array holds the first linear layer of x. -/
theorem W2_main_v4 (c : Dev nD) : W2 (F := Ideal) m ρ c (Proc.devRef .tc main_v4)
    = Spec.lin1 (m ((c.tc : Thread nD τ).loc main_arg0)) (m ((c.tc : Thread nD τ).loc main_arg2)) := by
  refine (W2_arr m ρ c 2).trans ?_
  refine (Region0.final (V1 m ρ) c).trans ?_
  rw [show V1 m ρ c main_arg0 = m ((c.tc : Thread nD τ).loc main_arg0) from W1_main_arg0 m ρ c,
    show V1 m ρ c main_arg2 = m ((c.tc : Thread nD τ).loc main_arg2) from W1_main_arg2 m ρ c]

/-- The edge sources and destinations reach the first collection as sliced before the first region. -/
theorem W2_src (c : Dev nD) : W2 (F := Ideal) m ρ c (Proc.devRef .tc main_v1) = srcOf (m ((c.tc : Thread nD τ).loc main_arg1)) :=
  (W2_main_v1 m ρ c).trans (W1_main_v1 m ρ c)
theorem W2_dst (c : Dev nD) : W2 (F := Ideal) m ρ c (Proc.devRef .tc main_v3) = dstOf (m ((c.tc : Thread nD τ).loc main_arg1)) :=
  (W2_main_v3 m ρ c).trans (W1_main_v3 m ρ c)
/-- … and the second collection likewise. -/
theorem W4_src (c : Dev nD) : W4 (F := Ideal) m ρ c (Proc.devRef .tc main_v1) = srcOf (m ((c.tc : Thread nD τ).loc main_arg1)) :=
  (W4_main_v1 m ρ c).trans ((W3_main_v1 m ρ c).trans (W2_src m ρ c))
theorem W4_dst (c : Dev nD) : W4 (F := Ideal) m ρ c (Proc.devRef .tc main_v3) = dstOf (m ((c.tc : Thread nD τ).loc main_arg1)) :=
  (W4_main_v3 m ρ c).trans ((W3_main_v3 m ρ c).trans (W2_dst m ρ c))

theorem W2_b1 (c : Dev nD) : W2 (F := Ideal) m ρ c (Proc.devRef .tc main_arg3) = m ((c.tc : Thread nD τ).loc main_arg3) :=
  (W2_main_arg3 m ρ c).trans (W1_main_arg3 m ρ c)
theorem W3_w2 (c : Dev nD) : W3 (F := Ideal) m ρ c (Proc.devRef .tc main_arg4) = m ((c.tc : Thread nD τ).loc main_arg4) :=
  (W3_main_arg4 m ρ c).trans ((W2_main_arg4 m ρ c).trans (W1_main_arg4 m ρ c))
theorem W4_b2 (c : Dev nD) : W4 (F := Ideal) m ρ c (Proc.devRef .tc main_arg5) = m ((c.tc : Thread nD τ).loc main_arg5) :=
  (W4_main_arg5 m ρ c).trans ((W3_main_arg5 m ρ c).trans ((W2_main_arg5 m ρ c).trans (W1_main_arg5 m ρ c)))

/-- After the second region its output array holds the second linear layer of the hidden features. -/
theorem W4_main_v17 (c : Dev nD) : W4 (F := Ideal) m ρ c (Proc.devRef .tc main_v17)
    = Spec.lin2 (Spec.hidden (aggK128 (srcOf (m ((c.tc : Thread nD τ).loc main_arg1))) (dstOf (m ((c.tc : Thread nD τ).loc main_arg1))))
        (m ((c.tc : Thread nD τ).loc main_arg0)) (m ((c.tc : Thread nD τ).loc main_arg2)) (fun k => m ((c.tc : Thread nD τ).loc main_arg3) (ix1 k)))
        (m ((c.tc : Thread nD τ).loc main_arg4)) := by
  refine (W4_arr m ρ c 3).trans ?_
  refine (Region1.final (V3 m ρ) c).trans ?_
  rw [show V3 m ρ c main_v15 = _ from W3_main_v15 m ρ c, show V3 m ρ c main_v16 = _ from W3_main_v16 m ρ c,
    show V3 m ρ c main_arg4 = _ from W3_w2 m ρ c, W2_src, W2_dst, W2_main_v4, W2_b1]
  unfold Spec.hidden
  simp only [row_cast_apply]

/-- After the last region the result buffer holds the network's output. -/
theorem W6_main_v30 (c : Dev nD) : W6 (F := Ideal) m ρ c (Proc.devRef .tc main_v30)
    = kout (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  refine (W6_arr m ρ c 2).trans ?_
  refine (Region2.final (V5 m ρ) c).trans ?_
  rw [show V5 m ρ c main_v28 = _ from W5_main_v28 m ρ c, show V5 m ρ c main_v29 = _ from W5_main_v29 m ρ c,
    W4_src, W4_dst, W4_main_v17, W4_b2]
  unfold kout Spec.out
  simp only [row_cast_apply]

/-- The run of the idealized kernel: the result buffer ends at `kout` of the launch's argument arrays, the arguments
    as launched. -/
theorem run : θ_run (defs (F := Ideal)) (onTc (τ := τ) (main (F := Ideal))) ⟨m, fun _ => 0, ρ⟩ (fun r => ∀ c : Dev nD,
      r.2.mem ((c.tc : Thread nD τ).loc main_v30)
        = kout (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun r h c => ⟨(h c).1.trans (W6_main_v30 m ρ c), (h c).2⟩) (run_mem m ρ)

end Cert.KernelIdeal.KValue

end
-- ==== Proof.RefOps.lean ====
/-
  The reference program read as one function of its six argument arrays.

  @main is a straight line of sixty-seven host operations once its calls are unfolded: the exponential linear unit is a
  function of the module (with two selection helpers inside it), and each call runs the callee's operations on the
  call's own buffers. Listed in order they are: the two rows of the edge table; the first linear layer; the collection
  over edges (a gather of the transformed node table at the sign-normalised source row, summed into a zero table at the
  destination row); the first bias; the exponential linear unit; the second linear layer; the same collection at 64
  columns; the second bias; and the softmax of every row (a row maximum, the shifted exponentials, their row sum, the
  quotient). Every weakly fair execution terminates with the result buffer at the composition of those operations on
  the launch contents of the arguments, which are left unchanged.
-/
import proofs.«156804_j75565654606208_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the calls unfolded: twenty-one of @main's own up to the first bias, the fifteen of the
    exponential linear unit (seven of its own, the three of the first selection helper, four more of its own, the one
    of the second helper), and @main's remaining thirty-one. A callee's operation is written at the buffers the call
    gives it: the callee's typed references carry each buffer's type, which at these literal buffers is the buffer's
    own, so the operation over them is the plain one. -/
abbrev ops : List (HloOp τ sig (Elt F)) :=
  [ unary main_arg1 main_v0 (extractStridedSlice S1x1600000 ![0, 0] · slices_S2x1600000_S1x1600000_0_0),
    reshape main_v0 main_v1 rfl shapeCasts_S1x1600000_S1600000,
    unary main_arg1 main_v2 (extractStridedSlice S1x1600000 ![1, 0] · slices_S2x1600000_S1x1600000_1_0),
    reshape main_v2 main_v3 rfl shapeCasts_S1x1600000_S1600000,
    binary main_arg0 main_arg2 main_v4 (fun l r => Host.dotGeneral dot_S100000x256_S256x128_S100000x128_1_0_0_1_n_n none l r),
    nullary main_c (constantI S_ 32 0#32),
    unary main_c main_v5 (broadcastInDim S1600000 ![] bcast_S_S1600000),
    binary main_v1 main_v5 main_v6 (cmpi .slt),
    nullary main_c_0 (constantI S_ 32 100000#32),
    unary main_c_0 main_v7 (broadcastInDim S1600000 ![] bcast_S_S1600000),
    binary main_v1 main_v7 main_v8 addi,
    ternary main_v6 main_v8 main_v1 main_v9 select,
    unary main_v9 main_v10 (broadcastInDim S1600000x1 ![0] bcast_S1600000_S1600000x1_0),
    binary main_v4 main_v10 main_v11 (fun x i => Host.gather gather_S100000x128_S1600000x1_S1600000x128_1_0_n_n_0_1_1128 x i),
    nullary main_cst (constant S_ .f32 0x00000000#32),
    unary main_cst main_v12 (broadcastInDim S100000x128 ![] bcast_S_S100000x128),
    unary main_v3 main_v13 (broadcastInDim S1600000x1 ![0] bcast_S1600000_S1600000x1_0),
    ternary main_v12 main_v13 main_v11 main_v14 (fun x i u => Host.scatterAdd scatter_S100000x128_S1600000x1_S1600000x128_1_0_0_1 x i u),
    unary main_arg3 main_v15 (broadcastInDim S1x128 ![1] bcast_S128_S1x128_1),
    unary main_v15 main_v16 (broadcastInDim S100000x128 ![0, 1] bcast_S1x128_S100000x128_0_1),
    binary main_v14 main_v16 main_v17 addf,
    nullary main_call0_cst (constant S_ .f32 0x00000000#32),
    unary main_call0_cst main_call0_v0 (broadcastInDim S100000x128 ![] bcast_S_S100000x128),
    binary main_v17 main_call0_v0 main_call0_v1 (cmpf .ogt),
    nullary main_call0_cst_0 (constant S_ .f32 0x00000000#32),
    unary main_call0_cst_0 main_call0_v2 (broadcastInDim S100000x128 ![] bcast_S_S100000x128),
    binary main_v17 main_call0_v2 main_call0_v3 (cmpf .ogt),
    nullary main_call0_cst_1 (constant S_ .f32 0x00000000#32),
    unary main_call0_cst_1 main_call0_call0_v0 id,
    unary main_call0_call0_v0 main_call0_call0_v1 (broadcastInDim S100000x128 ![] bcast_S_S100000x128),
    ternary main_call0_v3 main_call0_call0_v1 main_v17 main_call0_v4 select,
    unary main_call0_v4 main_call0_v5 Host.expm1,
    nullary main_call0_cst_2 (constant S_ .f32 0x3F800000#32),
    unary main_call0_cst_2 main_call0_v6 (broadcastInDim S100000x128 ![] bcast_S_S100000x128),
    binary main_call0_v6 main_call0_v5 main_call0_v7 mulf,
    ternary main_call0_v1 main_v17 main_call0_v7 main_v18 select,
    binary main_v18 main_arg4 main_v19 (fun l r => Host.dotGeneral dot_S100000x128_S128x64_S100000x64_1_0_0_1_n_n none l r),
    nullary main_c_1 (constantI S_ 32 0#32),
    unary main_c_1 main_v20 (broadcastInDim S1600000 ![] bcast_S_S1600000),
    binary main_v1 main_v20 main_v21 (cmpi .slt),
    nullary main_c_2 (constantI S_ 32 100000#32),
    unary main_c_2 main_v22 (broadcastInDim S1600000 ![] bcast_S_S1600000),
    binary main_v1 main_v22 main_v23 addi,
    ternary main_v21 main_v23 main_v1 main_v24 select,
    unary main_v24 main_v25 (broadcastInDim S1600000x1 ![0] bcast_S1600000_S1600000x1_0),
    binary main_v19 main_v25 main_v26 (fun x i => Host.gather gather_S100000x64_S1600000x1_S1600000x64_1_0_n_n_0_1_164 x i),
    nullary main_cst_3 (constant S_ .f32 0x00000000#32),
    unary main_cst_3 main_v27 (broadcastInDim S100000x64 ![] bcast_S_S100000x64),
    unary main_v3 main_v28 (broadcastInDim S1600000x1 ![0] bcast_S1600000_S1600000x1_0),
    ternary main_v27 main_v28 main_v26 main_v29 (fun x i u => Host.scatterAdd scatter_S100000x64_S1600000x1_S1600000x64_1_0_0_1 x i u),
    unary main_arg5 main_v30 (broadcastInDim S1x64 ![1] bcast_S64_S1x64_1),
    unary main_v30 main_v31 (broadcastInDim S100000x64 ![0, 1] bcast_S1x64_S100000x64_0_1),
    binary main_v29 main_v31 main_v32 addf,
    nullary main_cst_4 (constant S_ .f32 0xFF800000#32),
    binary main_v32 main_cst_4 main_v33 (fun x v => Host.reduce FloatOps.maximumf x v reducesTo_S100000x64_S100000_d1 h_S_),
    nullary main_cst_5 (constant S_ .f32 0xFF800000#32),
    unary main_cst_5 main_v34 (broadcastInDim S100000 ![] bcast_S_S100000),
    binary main_v34 main_v33 main_v35 maximumf,
    unary main_v35 main_v36 (broadcastInDim S100000x1 ![0] bcast_S100000_S100000x1_0),
    unary main_v36 main_v37 (broadcastInDim S100000x64 ![0, 1] bcast_S100000x1_S100000x64_0_1),
    binary main_v32 main_v37 main_v38 subf,
    unary main_v38 main_v39 Host.exp,
    nullary main_cst_6 (constant S_ .f32 0x00000000#32),
    binary main_v39 main_cst_6 main_v40 (fun x v => Host.reduceAdd x v reducesTo_S100000x64_S100000_d1 h_S_),
    unary main_v40 main_v41 (broadcastInDim S100000x1 ![0] bcast_S100000_S100000x1_0),
    unary main_v41 main_v42 (broadcastInDim S100000x64 ![0, 1] bcast_S100000x1_S100000x64_0_1),
    binary main_v39 main_v42 main_v43 Host.divf ]

-- sixty-seven binds re-associated: the rewrite under the chain recurses once per statement
set_option maxRecDepth 2048 in
/-- @main is that straight line: the functions' definitions unfolded at their calls, both sides are one chain of steps
    once sequencing is re-associated. -/
theorem main_eq (c : Dev nD) : main (F := F) c = seq ops := by
  simp only [main, fn_elu.body, fn_where.body, fn_where_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore buffers of the signature only. -/
theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., unary_bufs_sub .., binary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub ..⟩

/-- At the compiled mesh, from any memory with zero counters: every weakly fair execution of @main on the TensorCores
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefRun.lean ====
/-
  The reference program's result as one term of its six argument arrays, at the exact instance (a float an extended
  real, every operation its textbook one).

  The term is the composition of the program's operations in order. Its two collections over edges are named: both
  read the edge table the same way (row 0 the edges' sources, made non-negative by adding the node count to a negative
  entry; row 1 their destinations), gather the rows of a node table at the sources, and add each gathered row into a
  zero table at its destination; they differ in the table's width only (128 and 64 columns). Around them the term is:
  the first linear layer, its collection, the first bias, the exponential linear unit, the second linear layer, its
  collection, the second bias, and the softmax of every row.
-/
import proofs.«156804_j75565654606208_2_alg».proof.Proof.RefOps
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The collection over edges of a node table of 128 columns: the rows of the table gathered at the edges' sources
    (row 0 of the edge table, a negative entry raised by the node count), each added into a zero table at the edge's
    destination (row 1 of the edge table). -/
def agg128 (e : IVec S2x1600000 32) (h : FVec Ideal S100000x128 .f32) : FVec Ideal S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0
      (shapeCast S1600000 (extractStridedSlice S1x1600000 ![1, 0] e slices_S2x1600000_S1x1600000_1_0) shapeCasts_S1x1600000_S1600000))
    (Host.gather gather_S100000x128_S1600000x1_S1600000x128_1_0_n_n_0_1_1128 h
      (broadcastInDim S1600000x1 ![0] bcast_S1600000_S1600000x1_0
        (select
          (cmpi .slt
            (shapeCast S1600000 (extractStridedSlice S1x1600000 ![0, 0] e slices_S2x1600000_S1x1600000_0_0) shapeCasts_S1x1600000_S1600000)
            (broadcastInDim S1600000 ![] bcast_S_S1600000 (constantI S_ 32 0#32)))
          (addi
            (shapeCast S1600000 (extractStridedSlice S1x1600000 ![0, 0] e slices_S2x1600000_S1x1600000_0_0) shapeCasts_S1x1600000_S1600000)
            (broadcastInDim S1600000 ![] bcast_S_S1600000 (constantI S_ 32 100000#32)))
          (shapeCast S1600000 (extractStridedSlice S1x1600000 ![0, 0] e slices_S2x1600000_S1x1600000_0_0) shapeCasts_S1x1600000_S1600000))))

/-- The same collection over edges of a node table of 64 columns. -/
def agg64 (e : IVec S2x1600000 32) (h : FVec Ideal S100000x64 .f32) : FVec Ideal S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0
      (shapeCast S1600000 (extractStridedSlice S1x1600000 ![1, 0] e slices_S2x1600000_S1x1600000_1_0) shapeCasts_S1x1600000_S1600000))
    (Host.gather gather_S100000x64_S1600000x1_S1600000x64_1_0_n_n_0_1_164 h
      (broadcastInDim S1600000x1 ![0] bcast_S1600000_S1600000x1_0
        (select
          (cmpi .slt
            (shapeCast S1600000 (extractStridedSlice S1x1600000 ![0, 0] e slices_S2x1600000_S1x1600000_0_0) shapeCasts_S1x1600000_S1600000)
            (broadcastInDim S1600000 ![] bcast_S_S1600000 (constantI S_ 32 0#32)))
          (addi
            (shapeCast S1600000 (extractStridedSlice S1x1600000 ![0, 0] e slices_S2x1600000_S1x1600000_0_0) shapeCasts_S1x1600000_S1600000)
            (broadcastInDim S1600000 ![] bcast_S_S1600000 (constantI S_ 32 100000#32)))
          (shapeCast S1600000 (extractStridedSlice S1x1600000 ![0, 0] e slices_S2x1600000_S1x1600000_0_0) shapeCasts_S1x1600000_S1600000))))

/-- The bias vector of 128 entries laid against every row: as one row, then along the 100000 rows. -/
def biasRows128 (b : FVec Ideal S128 .f32) : FVec Ideal S100000x128 .f32 :=
  broadcastInDim S100000x128 ![0, 1] bcast_S1x128_S100000x128_0_1 (broadcastInDim S1x128 ![1] bcast_S128_S1x128_1 b)

/-- The bias vector of 64 entries laid against every row. -/
def biasRows64 (b : FVec Ideal S64 .f32) : FVec Ideal S100000x64 .f32 :=
  broadcastInDim S100000x64 ![0, 1] bcast_S1x64_S100000x64_0_1 (broadcastInDim S1x64 ![1] bcast_S64_S1x64_1 b)

/-- The exponential linear unit as the program computes it, entry by entry: where the entry exceeds zero the entry
    itself, elsewhere one times (the exponential minus one) of the entry — the exponential's operand being zero where
    the entry exceeds zero, so that the branch not taken stays finite. -/
def eluArr (v : FVec Ideal S100000x128 .f32) : FVec Ideal S100000x128 .f32 :=
  select (cmpf .ogt v (broadcastInDim S100000x128 ![] bcast_S_S100000x128 (constant S_ .f32 0x00000000#32))) v
    (mulf (broadcastInDim S100000x128 ![] bcast_S_S100000x128 (constant S_ .f32 0x3F800000#32))
      (Host.expm1
        (select (cmpf .ogt v (broadcastInDim S100000x128 ![] bcast_S_S100000x128 (constant S_ .f32 0x00000000#32)))
          (broadcastInDim S100000x128 ![] bcast_S_S100000x128 (id (constant S_ .f32 0x00000000#32))) v)))

/-- The largest entry of every row, as the program computes it: the reduction by maximum along the columns from the
    word of minus infinity, then once more the maximum with that word. -/
def rowMaxArr (v : FVec Ideal S100000x64 .f32) : FVec Ideal S100000 .f32 :=
  maximumf (broadcastInDim S100000 ![] bcast_S_S100000 (constant S_ .f32 0xFF800000#32))
    (Host.reduce FloatOps.maximumf v (constant S_ .f32 0xFF800000#32) reducesTo_S100000x64_S100000_d1 h_S_)

/-- A per-row value laid against every entry of its row: as a column, then along the 64 columns. -/
def alongRows (r : FVec Ideal S100000 .f32) : FVec Ideal S100000x64 .f32 :=
  broadcastInDim S100000x64 ![0, 1] bcast_S100000x1_S100000x64_0_1 (broadcastInDim S100000x1 ![0] bcast_S100000_S100000x1_0 r)

/-- The exponentials of a table's entries, each shifted by its row's largest entry. -/
def shiftedExp (v : FVec Ideal S100000x64 .f32) : FVec Ideal S100000x64 .f32 :=
  Host.exp (subf v (alongRows (rowMaxArr v)))

/-- The softmax of every row as the program computes it: the shifted exponentials over their row sums. -/
def softmaxArr (v : FVec Ideal S100000x64 .f32) : FVec Ideal S100000x64 .f32 :=
  Host.divf (shiftedExp v)
    (alongRows (Host.reduceAdd (shiftedExp v) (constant S_ .f32 0x00000000#32) reducesTo_S100000x64_S100000_d1 h_S_))

/-- The program's result as one term of its arguments: the node features, the edge table, and the two layers' weights
    and biases. -/
def term (x : FVec Ideal S100000x256 .f32) (e : IVec S2x1600000 32) (w1 : FVec Ideal S256x128 .f32) (b1 : FVec Ideal S128 .f32)
    (w2 : FVec Ideal S128x64 .f32) (b2 : FVec Ideal S64 .f32) : FVec Ideal S100000x64 .f32 :=
  softmaxArr
    (addf
      (agg64 e
        (Host.dotGeneral dot_S100000x128_S128x64_S100000x64_1_0_0_1_n_n none
          (eluArr
            (addf (agg128 e (Host.dotGeneral dot_S100000x256_S256x128_S100000x128_1_0_0_1_n_n none x w1)) (biasRows128 b1)))
          w2))
      (biasRows64 b2))

attribute [local irreducible] Host.reduce Host.reduceAdd Host.gather Host.scatterAdd FloatOps.dotGeneral in
set_option maxRecDepth 8192 in
set_option maxHeartbeats 400000 in
/-- The fold at the result buffer is the term: each operation's result at the buffer it writes is its function at what
    its operands' buffers hold, and at any other buffer what was there; what is left is the composition, spelled as
    the term is. -/
theorem out_eq (V : Valuation τ sig (Elt Ideal)) :
    after ops V (main_v43 : DevRef τ sig)
      = term (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

/-- No operation writes an argument's buffer: the fold leaves each where it was. -/
theorem arg0_eq (V : Valuation τ sig (Elt Ideal)) : after ops V (main_arg0 : DevRef τ sig) = V (main_arg0 : DevRef τ sig) := by
  after_results_simp
theorem arg1_eq (V : Valuation τ sig (Elt Ideal)) : after ops V (main_arg1 : DevRef τ sig) = V (main_arg1 : DevRef τ sig) := by
  after_results_simp
theorem arg2_eq (V : Valuation τ sig (Elt Ideal)) : after ops V (main_arg2 : DevRef τ sig) = V (main_arg2 : DevRef τ sig) := by
  after_results_simp
theorem arg3_eq (V : Valuation τ sig (Elt Ideal)) : after ops V (main_arg3 : DevRef τ sig) = V (main_arg3 : DevRef τ sig) := by
  after_results_simp
theorem arg4_eq (V : Valuation τ sig (Elt Ideal)) : after ops V (main_arg4 : DevRef τ sig) = V (main_arg4 : DevRef τ sig) := by
  after_results_simp
theorem arg5_eq (V : Valuation τ sig (Elt Ideal)) : after ops V (main_arg5 : DevRef τ sig) = V (main_arg5 : DevRef τ sig) := by
  after_results_simp

/-- At the compiled mesh, from any memory with zero counters: every weakly fair execution of @main terminates with the
    result buffer at the term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43)
        = term (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v43).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_main m ρ)

end Cert.ReferenceIdeal.RefValue

end
-- ==== Proof.RefStages.lean ====
/-
  The stages of the reference program, each read as the specification's function of its operands on the extended
  reals. A dot product of two rank-2 arrays contracting the inner axis is, entry by entry, the sum over the shared
  position of the products. A bias vector laid out as one row and repeated along the rows, added to an array, adds
  entry q of the vector to column q. The exponential linear unit as the reference spells it — a comparison with zero,
  the exponential minus one of the value with its positive entries replaced by zero, and a final selection by the same
  comparison — is v where v is positive and exp v - 1 elsewhere.
-/
import proofs.«156804_j75565654606208_2_alg».proof.ReferenceIdeal
import proofs.«156804_j75565654606208_2_alg».proof.Proof.Gen.ReferenceIdeal
import proofs.«156804_j75565654606208_2_alg».proof.Proof.Spec
import proofs.«156804_j75565654606208_2_alg».proof.Proof.LibMatmul
import Idealize.ShloMosaic.Lib.ValueIdx
import Idealize.ShloMosaic.Lib.Pipeline.Value
import Idealize.ShloMosaic.PureOps.Ideal.Laws

noncomputable section

open scoped BigOperators

namespace Cert.ReferenceIdeal.RefStages

open Idealize.ShloMosaic Idealize.ShloMosaic.ValueIdx Cert.ReferenceIdeal Cert.ReferenceIdeal.Facts₀

/-! ## The two linear layers -/

/-- The first dot product is the first linear layer: entry (p, q) is the sum over the 256 features. -/
theorem lin1_eq (x : FVec Ideal S100000x256 .f32) (w : FVec Ideal S256x128 .f32) :
    Host.dotGeneral dot_S100000x256_S256x128_S100000x128_1_0_0_1_n_n none x w = Cert.Spec.lin1 x w := by
  funext i
  obtain ⟨p, q, rfl⟩ : ∃ (p : Fin 100000) (q : Fin 128), i = ix2 p q := ⟨i 0, i 1, eq_ix2 i⟩
  exact dotGeneral_ix2 dot_S100000x256_S256x128_S100000x128_1_0_0_1_n_n rfl rfl rfl rfl rfl rfl none _ x w p q

/-- The second dot product is the second linear layer: entry (p, q) is the sum over the 128 hidden features. -/
theorem lin2_eq (h : FVec Ideal S100000x128 .f32) (w : FVec Ideal S128x64 .f32) :
    Host.dotGeneral dot_S100000x128_S128x64_S100000x64_1_0_0_1_n_n none h w = Cert.Spec.lin2 h w := by
  funext i
  obtain ⟨p, q, rfl⟩ : ∃ (p : Fin 100000) (q : Fin 64), i = ix2 p q := ⟨i 0, i 1, eq_ix2 i⟩
  exact dotGeneral_ix2 dot_S100000x128_S128x64_S100000x64_1_0_0_1_n_n rfl rfl rfl rfl rfl rfl none _ h w p q

/-! ## The bias rows -/

/-- A vector of c entries laid out as the one row of a 1 x c array and repeated along n rows reads, at (p, q), its
    entry q. -/
theorem rowOfVector_apply {α : Type} {n c : ℕ} (b : (⟨1, ![c]⟩ : Shape).Idx → α)
    (h1 : (⟨1, ![c]⟩ : Shape).BroadcastsInDim ⟨2, ![1, c]⟩ (![1] : Fin 1 → Fin 2))
    (h2 : (⟨2, ![1, c]⟩ : Shape).BroadcastsInDim ⟨2, ![n, c]⟩ (![0, 1] : Fin 2 → Fin 2)) (p : Fin n) (q : Fin c) :
    broadcastInDim ⟨2, ![n, c]⟩ (![0, 1] : Fin 2 → Fin 2) h2 (broadcastInDim ⟨2, ![1, c]⟩ (![1] : Fin 1 → Fin 2) h1 b) (ix2 p q)
      = b (ix1 q) := by
  refine (broadcastInDim_apply (![0, 1] : Fin 2 → Fin 2) h2 _ (ix2 p q) (ix2 (0 : Fin 1) q) fun ax => ?_).trans ?_
  · match ax with
    | ⟨0, _⟩ =>
      show (0 : ℕ) = if (1 : ℕ) = 1 then 0 else p.val
      rw [if_pos rfl]
    | ⟨1, _⟩ =>
      show q.val = if c = 1 then 0 else q.val
      split
      · have := q.isLt; omega
      · rfl
  · refine broadcastInDim_apply (![1] : Fin 1 → Fin 2) h1 b (ix2 (0 : Fin 1) q) (ix1 q) fun ax => ?_
    match ax with
    | ⟨0, _⟩ =>
      show q.val = if c = 1 then 0 else q.val
      split
      · have := q.isLt; omega
      · rfl

/-- The 128-entry bias, laid out as a row and repeated along the rows, added to an array: the specification's bias. -/
theorem bias128_eq (a : FVec Ideal S100000x128 .f32) (b : FVec Ideal S128 .f32) :
    addf a (broadcastInDim S100000x128 ![0, 1] bcast_S1x128_S100000x128_0_1 (broadcastInDim S1x128 ![1] bcast_S128_S1x128_1 b))
      = Cert.Spec.bias128 a (fun k => b (ix1 k)) := by
  funext i
  obtain ⟨p, q, rfl⟩ : ∃ (p : Fin 100000) (q : Fin 128), i = ix2 p q := ⟨i 0, i 1, eq_ix2 i⟩
  show a (ix2 p q) + broadcastInDim S100000x128 ![0, 1] bcast_S1x128_S100000x128_0_1
      (broadcastInDim S1x128 ![1] bcast_S128_S1x128_1 b) (ix2 p q) = a (ix2 p q) + b (ix1 q)
  exact congrArg (a (ix2 p q) + ·) (rowOfVector_apply b bcast_S128_S1x128_1 bcast_S1x128_S100000x128_0_1 p q)

/-- The 64-entry bias likewise. -/
theorem bias64_eq (a : FVec Ideal S100000x64 .f32) (b : FVec Ideal S64 .f32) :
    addf a (broadcastInDim S100000x64 ![0, 1] bcast_S1x64_S100000x64_0_1 (broadcastInDim S1x64 ![1] bcast_S64_S1x64_1 b))
      = Cert.Spec.bias64 a (fun k => b (ix1 k)) := by
  funext i
  obtain ⟨p, q, rfl⟩ : ∃ (p : Fin 100000) (q : Fin 64), i = ix2 p q := ⟨i 0, i 1, eq_ix2 i⟩
  show a (ix2 p q) + broadcastInDim S100000x64 ![0, 1] bcast_S1x64_S100000x64_0_1
      (broadcastInDim S1x64 ![1] bcast_S64_S1x64_1 b) (ix2 p q) = a (ix2 p q) + b (ix1 q)
  exact congrArg (a (ix2 p q) + ·) (rowOfVector_apply b bcast_S64_S1x64_1 bcast_S1x64_S100000x64_0_1 p q)

/-! ## The exponential linear unit -/

/-- The word 0x3F800000 encodes the extended real 1. -/
theorem ofBits_one_f32 : Ideal.ofBits .f32 0x3F800000#32 = 1 := by
  simp [Ideal.ofBits, Ideal.ieee, -EReal.coe_mul]; norm_num

/-- The reference's spelling of elu on an extended real is the specification's: where v is positive the comparison's
    bit is 1 and the outer select takes v; elsewhere the bit is 0, the inner select keeps v, and the outer select takes
    1 · (exp v - 1). -/
theorem elu_host (v : EReal) :
    Scalar.select (Ideal.cmp .ogt v (Ideal.ofBits .f32 0x00000000#32)) v
      (Ideal.ofBits .f32 0x3F800000#32
        * (Ideal.exp (Scalar.select (Ideal.cmp .ogt v (Ideal.ofBits .f32 0x00000000#32))
            (Ideal.ofBits .f32 0x00000000#32) v) - 1)) = Cert.Spec.elu v := by
  rw [Ideal.ofBits_zero_f32, ofBits_one_f32, one_mul]
  unfold Cert.Spec.elu
  by_cases h : 0 < v
  · have hc : Ideal.cmp .ogt v 0 = 1#1 := by simp [Ideal.cmp, h]
    rw [hc, select_one, if_pos h]
  · have hc : Ideal.cmp .ogt v 0 = 0#1 := by simp [Ideal.cmp, h]
    rw [hc, select_zero, select_zero, if_neg h]

/-- The reference's elu of an array as one term of it: the comparison with the zero array, the exponential minus one
    of the array with zero where the comparison holds, times the array of ones, selected by the same comparison. -/
def eluArr (x : FVec Ideal S100000x128 .f32) : FVec Ideal S100000x128 .f32 :=
  select (cmpf .ogt x (broadcastInDim S100000x128 ![] bcast_S_S100000x128 (constant (F := Ideal) S_ .f32 0x00000000#32))) x
    (mulf (broadcastInDim S100000x128 ![] bcast_S_S100000x128 (constant (F := Ideal) S_ .f32 0x3F800000#32))
      (Host.expm1
        (select (cmpf .ogt x (broadcastInDim S100000x128 ![] bcast_S_S100000x128 (constant (F := Ideal) S_ .f32 0x00000000#32)))
          (broadcastInDim S100000x128 ![] bcast_S_S100000x128 (id (constant (F := Ideal) S_ .f32 0x00000000#32))) x)))

/-- It is the specification's elu of every entry. -/
theorem eluArr_eq (x : FVec Ideal S100000x128 .f32) : eluArr x = fun i => Cert.Spec.elu (x i) := by
  funext i
  exact elu_host (x i)

end Cert.ReferenceIdeal.RefStages

end
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.RefSoftmax.lean ====
/-
  The reference's softmax, read index by index. The printed lines take, for every row of the input, the maximum of the
  row (a fold of `max` from the word of minus infinity, then once more against that same word), subtract it from every
  entry of the row, exponentiate, sum the exponentials of the row from zero, and divide each exponential by its row's
  sum. The fold of `max` from a value b is at least b, so the second maximum against b changes nothing and the word of
  minus infinity is never evaluated; the sum from the zero word is the plain sum. What is left, at entry (p, q), is
  exp (v (p, q) - rowMax v p) over the sum over q' of exp (v (p, q') - rowMax v p): the specification's softmax.
-/
import proofs.«156804_j75565654606208_2_alg».proof.ReferenceIdeal
import proofs.«156804_j75565654606208_2_alg».proof.Proof.Gen.ReferenceIdeal
import proofs.«156804_j75565654606208_2_alg».proof.Proof.Spec
import proofs.«156804_j75565654606208_2_alg».proof.Proof.LibHostColumns
import Idealize.ShloMosaic.Lib.ValueIdx
import Idealize.ShloMosaic.Lib.IdealHost
import Idealize.ShloMosaic.PureOps.Ideal.Laws
import Idealize.ShloMosaic.PureOps.Reduce

set_option maxRecDepth 16384

noncomputable section

open scoped BigOperators

namespace Cert.ReferenceIdeal.RefSoftmax

open Idealize.ShloMosaic Idealize.ShloMosaic.ValueIdx Cert.ReferenceIdeal
open Cert.ReferenceIdeal.Facts₀

/-- The row maxima as the printed lines compute them: the reduction with a maximum body from the word of minus
    infinity, then the maximum against the broadcast of that same word. -/
def rowMaxH (v : FVec Ideal S100000x64 .f32) : FVec Ideal S100000 .f32 :=
  maximumf (broadcastInDim S100000 ![] bcast_S_S100000 (constant (F := Ideal) S_ .f32 0xFF800000#32))
    (Host.reduce FloatOps.maximumf v (constant (F := Ideal) S_ .f32 0xFF800000#32) reducesTo_S100000x64_S100000_d1 h_S_)

/-- The exponentials of the entries shifted by their row's maximum, as the printed lines compute them. -/
def expShift (v : FVec Ideal S100000x64 .f32) : FVec Ideal S100000x64 .f32 :=
  Host.exp (subf v (broadcastInDim S100000x64 ![0, 1] bcast_S100000x1_S100000x64_0_1
    (broadcastInDim S100000x1 ![0] bcast_S100000_S100000x1_0 (rowMaxH v))))

/-- The printed softmax tail as one term of its input. -/
def tail (v : FVec Ideal S100000x64 .f32) : FVec Ideal S100000x64 .f32 :=
  Host.divf (expShift v) (broadcastInDim S100000x64 ![0, 1] bcast_S100000x1_S100000x64_0_1
    (broadcastInDim S100000x1 ![0] bcast_S100000_S100000x1_0
      (Host.reduceAdd (expShift v) (constant (F := Ideal) S_ .f32 0x00000000#32) reducesTo_S100000x64_S100000_d1 h_S_)))

/-- The same term with nothing abbreviated: each printed operation applied to the ones before it. -/
theorem tail_unfold (v : FVec Ideal S100000x64 .f32) :
    tail v =
      Host.divf
        (Host.exp (subf v (broadcastInDim S100000x64 ![0, 1] bcast_S100000x1_S100000x64_0_1
          (broadcastInDim S100000x1 ![0] bcast_S100000_S100000x1_0
            (maximumf (broadcastInDim S100000 ![] bcast_S_S100000 (constant (F := Ideal) S_ .f32 0xFF800000#32))
              (Host.reduce FloatOps.maximumf v (constant (F := Ideal) S_ .f32 0xFF800000#32)
                reducesTo_S100000x64_S100000_d1 h_S_))))))
        (broadcastInDim S100000x64 ![0, 1] bcast_S100000x1_S100000x64_0_1
          (broadcastInDim S100000x1 ![0] bcast_S100000_S100000x1_0
            (Host.reduceAdd
              (Host.exp (subf v (broadcastInDim S100000x64 ![0, 1] bcast_S100000x1_S100000x64_0_1
                (broadcastInDim S100000x1 ![0] bcast_S100000_S100000x1_0
                  (maximumf (broadcastInDim S100000 ![] bcast_S_S100000 (constant (F := Ideal) S_ .f32 0xFF800000#32))
                    (Host.reduce FloatOps.maximumf v (constant (F := Ideal) S_ .f32 0xFF800000#32)
                      reducesTo_S100000x64_S100000_d1 h_S_))))))
              (constant (F := Ideal) S_ .f32 0x00000000#32) reducesTo_S100000x64_S100000_d1 h_S_))) := rfl

/-- The reduction over the columns leaves one entry per row. -/
theorem reduces_cols : S100000x64.Reduces [1] S100000 := by decide

/-- The row maximum the host computes is the specification's: the second maximum against the starting word is
    absorbed, a fold of `max` from b being at least b. -/
theorem rowMaxH_apply (v : FVec Ideal S100000x64 .f32) (p : Fin 100000) : rowMaxH v (ix1 p) = Cert.Spec.rowMax v p := by
  unfold rowMaxH
  refine (maximumf_apply _ _ (ix1 p)).trans ?_
  rw [broadcastInDim_scalar_apply,
    Host.reduce_eq_fold_single FloatOps.maximumf v _ reducesTo_S100000x64_S100000_d1 reduces_cols h_S_]
  unfold Cert.Spec.rowMax
  have hf : (v ∘ reduces_cols.lift (ix1 p)) = fun k : Fin 64 => v (ix2 p k) :=
    funext fun k => congrArg v (lift_ix1_columns reduces_cols p k)
  show max (Ideal.ofBits .f32 0xFF800000#32)
      (Finset.fold max (Ideal.ofBits .f32 0xFF800000#32) (v ∘ reduces_cols.lift (ix1 p)) (Finset.univ : Finset (Fin 64)))
    = Finset.fold max (Ideal.ofBits .f32 0xFF800000#32) (fun q => v (ix2 p q)) (Finset.univ : Finset (Fin 64))
  rw [hf]
  exact max_eq_right ((Finset.le_fold_max _).2 (Or.inl le_rfl))

/-- The host's sum over the columns from the zero word is the plain sum of the row. -/
theorem rowSum_apply (e : FVec Ideal S100000x64 .f32) (p : Fin 100000) :
    Host.reduceAdd e (constant (F := Ideal) S_ .f32 0x00000000#32) reducesTo_S100000x64_S100000_d1 h_S_ (ix1 p)
      = ∑ k : Fin 64, e (ix2 p k) := by
  refine (hostReduceAdd_apply e _ _ h_S_ (ix1 p)).trans ?_
  rw [Ideal.hostReduceAdd_single _ reduces_cols]
  show Ideal.ofBits .f32 0x00000000#32 + ∑ k : Fin 64, e (reduces_cols.lift (ix1 p) k) = _
  rw [Ideal.ofBits_zero_f32, zero_add]
  exact Finset.sum_congr rfl fun k _ => congrArg e (lift_ix1_columns reduces_cols p k)

/-- The shifted exponential at (p, q). -/
theorem expShift_apply (v : FVec Ideal S100000x64 .f32) (p : Fin 100000) (q : Fin 64) :
    expShift v (ix2 p q) = Ideal.exp (v (ix2 p q) - Cert.Spec.rowMax v p) := by
  unfold expShift
  show Ideal.exp (v (ix2 p q) - broadcastInDim S100000x64 ![0, 1] bcast_S100000x1_S100000x64_0_1
    (broadcastInDim S100000x1 ![0] bcast_S100000_S100000x1_0 (rowMaxH v)) (ix2 p q)) = _
  rw [broadcastInDim_column_apply, rowMaxH_apply]

/-- The printed softmax tail is the specification's softmax. -/
theorem tail_eq (v : FVec Ideal S100000x64 .f32) : tail v = Cert.Spec.softmax v := by
  funext i
  obtain ⟨p, q, rfl⟩ : ∃ (p : Fin 100000) (q : Fin 64), i = ix2 p q := ⟨i 0, i 1, eq_ix2 i⟩
  unfold tail Cert.Spec.softmax
  refine (hostDivf_apply _ _ (ix2 p q)).trans ?_
  rw [broadcastInDim_column_apply, rowSum_apply, expShift_apply]
  refine congrArg (Ideal.div (Ideal.exp (v (ix2 p q) - Cert.Spec.rowMax v p))) ?_
  exact Finset.sum_congr rfl fun k _ => expShift_apply v p k

end Cert.ReferenceIdeal.RefSoftmax

end
-- ==== Proof.RefRead.lean ====
/-
  The reference program's term is the specification's network output.

  The term is a composition of stages, and each stage is a function of the specification: the two dot products are the
  two linear layers; a bias laid out as a row, repeated along the rows and added is the specification's bias; the
  program's exponential linear unit is the specification's at every entry; the program's softmax tail is the
  specification's softmax. The two collections over edges are the same opaque functions on both sides. Rewriting the
  stages innermost first turns the term into the specification's output.
-/
import proofs.«156804_j75565654606208_2_alg».proof.Proof.RefRun
import proofs.«156804_j75565654606208_2_alg».proof.Proof.RefStages
import proofs.«156804_j75565654606208_2_alg».proof.Proof.RefSoftmax
import proofs.«156804_j75565654606208_2_alg».proof.Proof.Spec
import Idealize.ShloMosaic.Lib.ValueIdx

noncomputable section

namespace Cert.ReferenceIdeal.RefValue

open Cert.ReferenceIdeal Cert.ReferenceIdeal.Gen Idealize.ShloMosaic Idealize.ShloMosaic.ValueIdx

/-- The first dot product is the specification's first linear layer. -/
theorem lin1_stage (x : FVec Ideal S100000x256 .f32) (w : FVec Ideal S256x128 .f32) :
    Host.dotGeneral dot_S100000x256_S256x128_S100000x128_1_0_0_1_n_n none x w = Cert.Spec.lin1 x w :=
  RefStages.lin1_eq x w

/-- The second dot product is the specification's second linear layer. -/
theorem lin2_stage (h : FVec Ideal S100000x128 .f32) (w : FVec Ideal S128x64 .f32) :
    Host.dotGeneral dot_S100000x128_S128x64_S100000x64_1_0_0_1_n_n none h w = Cert.Spec.lin2 h w :=
  RefStages.lin2_eq h w

/-- Adding the 128-entry bias laid against every row is the specification's bias. -/
theorem bias128_stage (a : FVec Ideal S100000x128 .f32) (b : FVec Ideal S128 .f32) :
    addf a (biasRows128 b) = Cert.Spec.bias128 a (fun q => b (ix1 q)) :=
  RefStages.bias128_eq a b

/-- Adding the 64-entry bias laid against every row is the specification's bias. -/
theorem bias64_stage (a : FVec Ideal S100000x64 .f32) (b : FVec Ideal S64 .f32) :
    addf a (biasRows64 b) = Cert.Spec.bias64 a (fun q => b (ix1 q)) :=
  RefStages.bias64_eq a b

/-- The program's exponential linear unit is the specification's at every entry. -/
theorem elu_stage (v : FVec Ideal S100000x128 .f32) : eluArr v = fun i => Cert.Spec.elu (v i) :=
  RefStages.eluArr_eq v

/-- The program's softmax of every row is the specification's. -/
theorem softmax_stage (v : FVec Ideal S100000x64 .f32) : softmaxArr v = Cert.Spec.softmax v :=
  RefSoftmax.tail_eq v

/-- The reference's term is the specification's output, with the program's two collections over edges as the
    specification's opaque collections. -/
theorem term_eq (x : FVec Ideal S100000x256 .f32) (e : IVec S2x1600000 32) (w1 : FVec Ideal S256x128 .f32)
    (b1 : FVec Ideal S128 .f32) (w2 : FVec Ideal S128x64 .f32) (b2 : FVec Ideal S64 .f32) :
    term x e w1 b1 w2 b2
      = Cert.Spec.out (agg128 e) (agg64 e) x w1 (fun q => b1 (ix1 q)) w2 (fun q => b2 (ix1 q)) := by
  unfold term
  rw [lin1_stage, bias128_stage, elu_stage, lin2_stage, bias64_stage, softmax_stage]
  rfl

end Cert.ReferenceIdeal.RefValue

end
-- ==== Proof.lean ====
/-
  A two-layer graph convolution followed by a row softmax, as a tiled kernel and as its plain array reference, are
  the same function of their inputs on the extended reals.

  Both programs compute, for node features x, an edge table e, weights w1, w2 and biases b1, b2:
    softmax ( collect_e ( elu ( collect_e (x · w1) + b1 ) · w2 ) + b2 ),
  where collect_e gathers a node table's rows at the edges' sources and sums them at the edges' destinations. The
  kernel splits the work into three tiled calls (x · w1 by blocks of 2000 rows; bias, elu and · w2 fused, by blocks of
  2000 rows; bias and softmax by blocks of 2000 rows) with the two collections between them on the host; it rounds
  intermediate tables to a narrower float format, which on the extended reals is the identity. A block of a row-tiled
  matrix product is the restriction of the whole product to those rows, and elu and softmax act within a row, so each
  call's output array is one whole-array function of its inputs (`Spec.lin1`, `Spec.lin2 ∘ Spec.hidden`,
  `Spec.softmax ∘ Spec.bias64`). The kernel's elu, v where v > 0 and exp (min v 0) − 1 elsewhere, and the reference's,
  v where v > 0 and 1 · (exp (v where v ≤ 0, else 0) − 1) elsewhere, agree on every extended real; both softmaxes
  shift by the row maximum taken from the same starting word. No law used needs finiteness, so the precondition is
  never opened. The collections are the same host operations on both sides and are never opened either.
-/
import proofs.«156804_j75565654606208_2_alg».proof.Defs
import proofs.«156804_j75565654606208_2_alg».proof.Proof.Gen.Kernel
import proofs.«156804_j75565654606208_2_alg».proof.Proof.Gen.Kernel.Frame
import proofs.«156804_j75565654606208_2_alg».proof.Proof.Gen.KernelIdeal
import proofs.«156804_j75565654606208_2_alg».proof.Proof.Gen.KernelIdeal.Frame
import proofs.«156804_j75565654606208_2_alg».proof.Proof.Gen.ReferenceIdeal
import proofs.«156804_j75565654606208_2_alg».proof.Proof.Gen.Pre_finite_inputs
import proofs.«156804_j75565654606208_2_alg».proof.Proof.KValue
import proofs.«156804_j75565654606208_2_alg».proof.Proof.RefRun
import proofs.«156804_j75565654606208_2_alg».proof.Proof.RefRead

noncomputable section

namespace Cert.Proof

open Idealize.ShloMosaic Idealize.ShloMosaic.TcCoe Idealize.SL.Sem

/-- The kernel's collection over edges of a 128-column table is the reference's: the same gather and the same sum,
    the kernel's change of float format between them the identity on extended reals. -/
theorem agg128_eq (e : IVec Cert.KernelIdeal.S2x1600000 32) (h : Cert.Spec.Arr 100000 128) :
    Cert.KernelIdeal.KValue.aggK128 (Cert.KernelIdeal.KValue.srcOf e) (Cert.KernelIdeal.KValue.dstOf e) h
      = Cert.ReferenceIdeal.RefValue.agg128 e h := rfl

/-- The same for a 64-column table. -/
theorem agg64_eq (e : IVec Cert.KernelIdeal.S2x1600000 32) (h : Cert.Spec.Arr 100000 64) :
    Cert.KernelIdeal.KValue.aggK64 (Cert.KernelIdeal.KValue.srcOf e) (Cert.KernelIdeal.KValue.dstOf e) h
      = Cert.ReferenceIdeal.RefValue.agg64 e h := rfl

/-- The kernel's result and the reference's term are one function of the arguments. -/
theorem result_eq (x : Cert.Spec.Arr 100000 256) (e : IVec Cert.KernelIdeal.S2x1600000 32) (w1 : Cert.Spec.Arr 256 128)
    (b1 : (⟨1, ![128]⟩ : Shape).Idx → EReal) (w2 : Cert.Spec.Arr 128 64) (b2 : (⟨1, ![64]⟩ : Shape).Idx → EReal) :
    Cert.ReferenceIdeal.RefValue.term x e w1 b1 w2 b2 = Cert.KernelIdeal.KValue.kout x e w1 b1 w2 b2 := by
  rw [Cert.ReferenceIdeal.RefValue.term_eq]
  unfold Cert.KernelIdeal.KValue.kout
  rw [show Cert.ReferenceIdeal.RefValue.agg128 e = Cert.KernelIdeal.KValue.aggK128 (Cert.KernelIdeal.KValue.srcOf e) (Cert.KernelIdeal.KValue.dstOf e)
        from funext fun h => (agg128_eq e h).symm,
    show Cert.ReferenceIdeal.RefValue.agg64 e = Cert.KernelIdeal.KValue.aggK64 (Cert.KernelIdeal.KValue.srcOf e) (Cert.KernelIdeal.KValue.dstOf e)
        from funext fun h => (agg64_eq e h).symm]

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run (Cert.ReferenceIdeal.defs (F := Ideal)) _ _).mono (fun _ h c => (h c).2) (Cert.ReferenceIdeal.RefValue.run m ρ)

/-- The idealization rewrote no operation. -/
theorem preserves : Cert.preserves_Kernel_KernelIdeal := trivial

/-- From memories agreeing on the arguments both programs run, and end with the same result array. -/
theorem algebraic : Cert.algebraic_KernelIdeal_ReferenceIdeal := by
  intro m ρ m' ρ' _ hagree
  refine ⟨_, Cert.KernelIdeal.KValue.run m ρ, ?_⟩
  refine (θ_run (Cert.ReferenceIdeal.defs (F := Ideal)) _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  exact result_eq _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
